-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x64 : Shape := ⟨3, ![2048, 32, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2048x32x64 : S_.BroadcastsInDim S2048x32x64 (![] : Fin 0 → Fin S2048x32x64.rank)
  reducesTo_S2048x32x64_S_d0_1_2 : S2048x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2048x32x64 .f32) (main_arg1 : FVec F S64x64 .f32) (main_arg2 : FVec F S64 .f32) (main_arg3 : FVec F S64x1 .f32) (main_arg4 : FVec F S64x1 .f32) (main_arg5 : FVec F S1 .f32) : IVec S_ 1 :=
  let main_v0 : FVec F S2048x32x64 .f32 := Host.absf main_arg0
  let main_cst : FVec F S_ .f32 := constant S_ .f32 0x7F800000#32
  let main_v1 : FVec F S2048x32x64 .f32 := broadcastInDim S2048x32x64 ![] bcast_S_S2048x32x64 main_cst
  let main_v2 : IVec S2048x32x64 1 := cmpf .olt main_v0 main_v1
  let main_c : IVec S_ 1 := constantI S_ 1 1#1
  let main_v3 : IVec S_ 1 := (fun x v => Host.reduce IntOp.andi x v reducesTo_S2048x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_v13 main_v16
-- ==== Kernel.lean ====
abbrev S2048x32x64 : Shape := ⟨3, ![2048, 32, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S2048x1 : Shape := ⟨2, ![2048, 1]⟩
abbrev S128x32x64 : Shape := ⟨3, ![128, 32, 64]⟩
abbrev S128x1 : Shape := ⟨2, ![128, 1]⟩
abbrev S128x496x64 : Shape := ⟨3, ![128, 496, 64]⟩
abbrev S128x1x64 : Shape := ⟨3, ![128, 1, 64]⟩
abbrev S128x31x64 : Shape := ⟨3, ![128, 31, 64]⟩
abbrev S128x30x64 : Shape := ⟨3, ![128, 30, 64]⟩
abbrev S128x29x64 : Shape := ⟨3, ![128, 29, 64]⟩
abbrev S128x28x64 : Shape := ⟨3, ![128, 28, 64]⟩
abbrev S128x27x64 : Shape := ⟨3, ![128, 27, 64]⟩
abbrev S128x26x64 : Shape := ⟨3, ![128, 26, 64]⟩
abbrev S128x25x64 : Shape := ⟨3, ![128, 25, 64]⟩
abbrev S128x24x64 : Shape := ⟨3, ![128, 24, 64]⟩
abbrev S128x23x64 : Shape := ⟨3, ![128, 23, 64]⟩
abbrev S128x22x64 : Shape := ⟨3, ![128, 22, 64]⟩
abbrev S128x21x64 : Shape := ⟨3, ![128, 21, 64]⟩
abbrev S128x20x64 : Shape := ⟨3, ![128, 20, 64]⟩
abbrev S128x19x64 : Shape := ⟨3, ![128, 19, 64]⟩
abbrev S128x18x64 : Shape := ⟨3, ![128, 18, 64]⟩
abbrev S128x17x64 : Shape := ⟨3, ![128, 17, 64]⟩
abbrev S128x16x64 : Shape := ⟨3, ![128, 16, 64]⟩
abbrev S128x15x64 : Shape := ⟨3, ![128, 15, 64]⟩
abbrev S128x14x64 : Shape := ⟨3, ![128, 14, 64]⟩
abbrev S128x13x64 : Shape := ⟨3, ![128, 13, 64]⟩
abbrev S128x12x64 : Shape := ⟨3, ![128, 12, 64]⟩
abbrev S128x11x64 : Shape := ⟨3, ![128, 11, 64]⟩
abbrev S128x10x64 : Shape := ⟨3, ![128, 10, 64]⟩
abbrev S128x9x64 : Shape := ⟨3, ![128, 9, 64]⟩
abbrev S128x8x64 : Shape := ⟨3, ![128, 8, 64]⟩
abbrev S128x7x64 : Shape := ⟨3, ![128, 7, 64]⟩
abbrev S128x6x64 : Shape := ⟨3, ![128, 6, 64]⟩
abbrev S128x5x64 : Shape := ⟨3, ![128, 5, 64]⟩
abbrev S128x4x64 : Shape := ⟨3, ![128, 4, 64]⟩
abbrev S128x3x64 : Shape := ⟨3, ![128, 3, 64]⟩
abbrev S128x2x64 : Shape := ⟨3, ![128, 2, 64]⟩
abbrev S63488x64 : Shape := ⟨2, ![63488, 64]⟩
abbrev S1x1x64 : Shape := ⟨3, ![1, 1, 64]⟩
abbrev S128x496 : Shape := ⟨2, ![128, 496]⟩
abbrev S128x496x1 : Shape := ⟨3, ![128, 496, 1]⟩
abbrev S128x1x1 : Shape := ⟨3, ![128, 1, 1]⟩
abbrev S128x64 : Shape := ⟨2, ![128, 64]⟩

abbrev nBuf : Space → Nat
  | .hbm => 9
  | .vmem => 10
  | .smem => 0
  | _ => 0

abbrev bufTy : (tb : Table) → Fin (tcTables nBuf tb) → BufTy
  | .hbm, ⟨0, _⟩ => ⟨S2048x32x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S64x1, .f32⟩
  | .hbm, ⟨5, _⟩ => ⟨S1, .f32⟩
  | .hbm, ⟨6, _⟩ => ⟨S1x64, .f32⟩
  | .hbm, ⟨7, _⟩ => ⟨S1x1, .f32⟩
  | .hbm, ⟨8, _⟩ => ⟨S2048x1, .f32⟩
  | .local _ .vmem, ⟨0, _⟩ => ⟨S128x32x64, .f32⟩
  | .local _ .vmem, ⟨1, _⟩ => ⟨S128x32x64, .f32⟩
  | .local _ .vmem, ⟨2, _⟩ => ⟨S64x64, .f32⟩
  | .local _ .vmem, ⟨3, _⟩ => ⟨S1x64, .f32⟩
  | .local _ .vmem, ⟨4, _⟩ => ⟨S64x1, .f32⟩
  | .local _ .vmem, ⟨5, _⟩ => ⟨S64x1, .f32⟩
  | .local _ .vmem, ⟨6, _⟩ => ⟨S1x1, .f32⟩
  | .local _ .vmem, ⟨7, _⟩ => ⟨S128x1, .f32⟩
  | .local _ .vmem, ⟨8, _⟩ => ⟨S128x1, .f32⟩
  | .local _ .vmem, ⟨9, _⟩ => ⟨S128x496x64, .f32⟩
  | _, _ => ⟨S2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S1_S1x1 : S1.ShapeCasts S1x1
  inb_S128x32x64_S128x32x64_0_0_0 : ∀ a, (![0, 0, 0] : Fin 3 → Nat) a + S128x32x64.size a ≤ S128x32x64.size a
  h_S128x32x64 : 0 < S128x32x64.numel
  slices_S128x32x64_o0_0_0_S128x1x64 : S128x32x64.Slices ![0, 0, 0] S128x1x64
  slices_S128x32x64_o0_1_0_S128x31x64 : S128x32x64.Slices ![0, 1, 0] S128x31x64
  broadcasts_S128x1x64_S128x31x64 : S128x1x64.Broadcasts S128x31x64
  inb_S128x496x64_S128x31x64_0_0_0 : ∀ a, (![0, 0, 0] : Fin 3 → Nat) a + S128x31x64.size a ≤ S128x496x64.size a
  h_S128x31x64 : 0 < S128x31x64.numel
  shapeCasts_S128x31x64_S128x31x64 : S128x31x64.ShapeCasts S128x31x64
  slices_S128x32x64_o0_1_0_S128x1x64 : S128x32x64.Slices ![0, 1, 0] S128x1x64
  slices_S128x32x64_o0_2_0_S128x30x64 : S128x32x64.Slices ![0, 2, 0] S128x30x64
  broadcasts_S128x1x64_S128x30x64 : S128x1x64.Broadcasts S128x30x64
  inb_S128x496x64_S128x30x64_0_31_0 : ∀ a, (![0, 31, 0] : Fin 3 → Nat) a + S128x30x64.size a ≤ S128x496x64.size a
  h_S128x30x64 : 0 < S128x30x64.numel
  shapeCasts_S128x30x64_S128x30x64 : S128x30x64.ShapeCasts S128x30x64
  slices_S128x32x64_o0_2_0_S128x1x64 : S128x32x64.Slices ![0, 2, 0] S128x1x64
  slices_S128x32x64_o0_3_0_S128x29x64 : S128x32x64.Slices ![0, 3, 0] S128x29x64
  broadcasts_S128x1x64_S128x29x64 : S128x1x64.Broadcasts S128x29x64
  inb_S128x496x64_S128x29x64_0_61_0 : ∀ a, (![0, 61, 0] : Fin 3 → Nat) a + S128x29x64.size a ≤ S128x496x64.size a
  h_S128x29x64 : 0 < S128x29x64.numel
  shapeCasts_S128x29x64_S128x29x64 : S128x29x64.ShapeCasts S128x29x64
  slices_S128x32x64_o0_3_0_S128x1x64 : S128x32x64.Slices ![0, 3, 0] S128x1x64
  slices_S128x32x64_o0_4_0_S128x28x64 : S128x32x64.Slices ![0, 4, 0] S128x28x64
  broadcasts_S128x1x64_S128x28x64 : S128x1x64.Broadcasts S128x28x64
  inb_S128x496x64_S128x28x64_0_90_0 : ∀ a, (![0, 90, 0] : Fin 3 → Nat) a + S128x28x64.size a ≤ S128x496x64.size a
  h_S128x28x64 : 0 < S128x28x64.numel
  shapeCasts_S128x28x64_S128x28x64 : S128x28x64.ShapeCasts S128x28x64
  slices_S128x32x64_o0_4_0_S128x1x64 : S128x32x64.Slices ![0, 4, 0] S128x1x64
  slices_S128x32x64_o0_5_0_S128x27x64 : S128x32x64.Slices ![0, 5, 0] S128x27x64
  broadcasts_S128x1x64_S128x27x64 : S128x1x64.Broadcasts S128x27x64
  inb_S128x496x64_S128x27x64_0_118_0 : ∀ a, (![0, 118, 0] : Fin 3 → Nat) a + S128x27x64.size a ≤ S128x496x64.size a
  h_S128x27x64 : 0 < S128x27x64.numel
  shapeCasts_S128x27x64_S128x27x64 : S128x27x64.ShapeCasts S128x27x64
  slices_S128x32x64_o0_5_0_S128x1x64 : S128x32x64.Slices ![0, 5, 0] S128x1x64
  slices_S128x32x64_o0_6_0_S128x26x64 : S128x32x64.Slices ![0, 6, 0] S128x26x64
  broadcasts_S128x1x64_S128x26x64 : S128x1x64.Broadcasts S128x26x64
  inb_S128x496x64_S128x26x64_0_145_0 : ∀ a, (![0, 145, 0] : Fin 3 → Nat) a + S128x26x64.size a ≤ S128x496x64.size a
  h_S128x26x64 : 0 < S128x26x64.numel
  shapeCasts_S128x26x64_S128x26x64 : S128x26x64.ShapeCasts S128x26x64
  slices_S128x32x64_o0_6_0_S128x1x64 : S128x32x64.Slices ![0, 6, 0] S128x1x64
  slices_S128x32x64_o0_7_0_S128x25x64 : S128x32x64.Slices ![0, 7, 0] S128x25x64
  broadcasts_S128x1x64_S128x25x64 : S128x1x64.Broadcasts S128x25x64
  inb_S128x496x64_S128x25x64_0_171_0 : ∀ a, (![0, 171, 0] : Fin 3 → Nat) a + S128x25x64.size a ≤ S128x496x64.size a
  h_S128x25x64 : 0 < S128x25x64.numel
  shapeCasts_S128x25x64_S128x25x64 : S128x25x64.ShapeCasts S128x25x64
  slices_S128x32x64_o0_7_0_S128x1x64 : S128x32x64.Slices ![0, 7, 0] S128x1x64
  slices_S128x32x64_o0_8_0_S128x24x64 : S128x32x64.Slices ![0, 8, 0] S128x24x64
  broadcasts_S128x1x64_S128x24x64 : S128x1x64.Broadcasts S128x24x64
  inb_S128x496x64_S128x24x64_0_196_0 : ∀ a, (![0, 196, 0] : Fin 3 → Nat) a + S128x24x64.size a ≤ S128x496x64.size a
  h_S128x24x64 : 0 < S128x24x64.numel
  shapeCasts_S128x24x64_S128x24x64 : S128x24x64.ShapeCasts S128x24x64
  slices_S128x32x64_o0_8_0_S128x1x64 : S128x32x64.Slices ![0, 8, 0] S128x1x64
  slices_S128x32x64_o0_9_0_S128x23x64 : S128x32x64.Slices ![0, 9, 0] S128x23x64
  broadcasts_S128x1x64_S128x23x64 : S128x1x64.Broadcasts S128x23x64
  inb_S128x496x64_S128x23x64_0_220_0 : ∀ a, (![0, 220, 0] : Fin 3 → Nat) a + S128x23x64.size a ≤ S128x496x64.size a
  h_S128x23x64 : 0 < S128x23x64.numel
  shapeCasts_S128x23x64_S128x23x64 : S128x23x64.ShapeCasts S128x23x64
  slices_S128x32x64_o0_9_0_S128x1x64 : S128x32x64.Slices ![0, 9, 0] S128x1x64
  slices_S128x32x64_o0_10_0_S128x22x64 : S128x32x64.Slices ![0, 10, 0] S128x22x64
  broadcasts_S128x1x64_S128x22x64 : S128x1x64.Broadcasts S128x22x64
  inb_S128x496x64_S128x22x64_0_243_0 : ∀ a, (![0, 243, 0] : Fin 3 → Nat) a + S128x22x64.size a ≤ S128x496x64.size a
  h_S128x22x64 : 0 < S128x22x64.numel
  shapeCasts_S128x22x64_S128x22x64 : S128x22x64.ShapeCasts S128x22x64
  slices_S128x32x64_o0_10_0_S128x1x64 : S128x32x64.Slices ![0, 10, 0] S128x1x64
  slices_S128x32x64_o0_11_0_S128x21x64 : S128x32x64.Slices ![0, 11, 0] S128x21x64
  broadcasts_S128x1x64_S128x21x64 : S128x1x64.Broadcasts S128x21x64
  inb_S128x496x64_S128x21x64_0_265_0 : ∀ a, (![0, 265, 0] : Fin 3 → Nat) a + S128x21x64.size a ≤ S128x496x64.size a
  h_S128x21x64 : 0 < S128x21x64.numel
  shapeCasts_S128x21x64_S128x21x64 : S128x21x64.ShapeCasts S128x21x64
  slices_S128x32x64_o0_11_0_S128x1x64 : S128x32x64.Slices ![0, 11, 0] S128x1x64
  slices_S128x32x64_o0_12_0_S128x20x64 : S128x32x64.Slices ![0, 12, 0] S128x20x64
  broadcasts_S128x1x64_S128x20x64 : S128x1x64.Broadcasts S128x20x64
  inb_S128x496x64_S128x20x64_0_286_0 : ∀ a, (![0, 286, 0] : Fin 3 → Nat) a + S128x20x64.size a ≤ S128x496x64.size a
  h_S128x20x64 : 0 < S128x20x64.numel
  shapeCasts_S128x20x64_S128x20x64 : S128x20x64.ShapeCasts S128x20x64
  slices_S128x32x64_o0_12_0_S128x1x64 : S128x32x64.Slices ![0, 12, 0] S128x1x64
  slices_S128x32x64_o0_13_0_S128x19x64 : S128x32x64.Slices ![0, 13, 0] S128x19x64
  broadcasts_S128x1x64_S128x19x64 : S128x1x64.Broadcasts S128x19x64
  inb_S128x496x64_S128x19x64_0_306_0 : ∀ a, (![0, 306, 0] : Fin 3 → Nat) a + S128x19x64.size a ≤ S128x496x64.size a
  h_S128x19x64 : 0 < S128x19x64.numel
  shapeCasts_S128x19x64_S128x19x64 : S128x19x64.ShapeCasts S128x19x64
  slices_S128x32x64_o0_13_0_S128x1x64 : S128x32x64.Slices ![0, 13, 0] S128x1x64
  slices_S128x32x64_o0_14_0_S128x18x64 : S128x32x64.Slices ![0, 14, 0] S128x18x64
  broadcasts_S128x1x64_S128x18x64 : S128x1x64.Broadcasts S128x18x64
  inb_S128x496x64_S128x18x64_0_325_0 : ∀ a, (![0, 325, 0] : Fin 3 → Nat) a + S128x18x64.size a ≤ S128x496x64.size a
  h_S128x18x64 : 0 < S128x18x64.numel
  shapeCasts_S128x18x64_S128x18x64 : S128x18x64.ShapeCasts S128x18x64
  slices_S128x32x64_o0_14_0_S128x1x64 : S128x32x64.Slices ![0, 14, 0] S128x1x64
  slices_S128x32x64_o0_15_0_S128x17x64 : S128x32x64.Slices ![0, 15, 0] S128x17x64
  broadcasts_S128x1x64_S128x17x64 : S128x1x64.Broadcasts S128x17x64
  inb_S128x496x64_S128x17x64_0_343_0 : ∀ a, (![0, 343, 0] : Fin 3 → Nat) a + S128x17x64.size a ≤ S128x496x64.size a
  h_S128x17x64 : 0 < S128x17x64.numel
  shapeCasts_S128x17x64_S128x17x64 : S128x17x64.ShapeCasts S128x17x64
  slices_S128x32x64_o0_15_0_S128x1x64 : S128x32x64.Slices ![0, 15, 0] S128x1x64
  slices_S128x32x64_o0_16_0_S128x16x64 : S128x32x64.Slices ![0, 16, 0] S128x16x64
  broadcasts_S128x1x64_S128x16x64 : S128x1x64.Broadcasts S128x16x64
  inb_S128x496x64_S128x16x64_0_360_0 : ∀ a, (![0, 360, 0] : Fin 3 → Nat) a + S128x16x64.size a ≤ S128x496x64.size a
  h_S128x16x64 : 0 < S128x16x64.numel
  shapeCasts_S128x16x64_S128x16x64 : S128x16x64.ShapeCasts S128x16x64
  slices_S128x32x64_o0_16_0_S128x1x64 : S128x32x64.Slices ![0, 16, 0] S128x1x64
  slices_S128x32x64_o0_17_0_S128x15x64 : S128x32x64.Slices ![0, 17, 0] S128x15x64
  broadcasts_S128x1x64_S128x15x64 : S128x1x64.Broadcasts S128x15x64
  inb_S128x496x64_S128x15x64_0_376_0 : ∀ a, (![0, 376, 0] : Fin 3 → Nat) a + S128x15x64.size a ≤ S128x496x64.size a
  h_S128x15x64 : 0 < S128x15x64.numel
  shapeCasts_S128x15x64_S128x15x64 : S128x15x64.ShapeCasts S128x15x64
  slices_S128x32x64_o0_17_0_S128x1x64 : S128x32x64.Slices ![0, 17, 0] S128x1x64
  slices_S128x32x64_o0_18_0_S128x14x64 : S128x32x64.Slices ![0, 18, 0] S128x14x64
  broadcasts_S128x1x64_S128x14x64 : S128x1x64.Broadcasts S128x14x64
  inb_S128x496x64_S128x14x64_0_391_0 : ∀ a, (![0, 391, 0] : Fin 3 → Nat) a + S128x14x64.size a ≤ S128x496x64.size a
  h_S128x14x64 : 0 < S128x14x64.numel
  shapeCasts_S128x14x64_S128x14x64 : S128x14x64.ShapeCasts S128x14x64
  slices_S128x32x64_o0_18_0_S128x1x64 : S128x32x64.Slices ![0, 18, 0] S128x1x64
  slices_S128x32x64_o0_19_0_S128x13x64 : S128x32x64.Slices ![0, 19, 0] S128x13x64
  broadcasts_S128x1x64_S128x13x64 : S128x1x64.Broadcasts S128x13x64
  inb_S128x496x64_S128x13x64_0_405_0 : ∀ a, (![0, 405, 0] : Fin 3 → Nat) a + S128x13x64.size a ≤ S128x496x64.size a
  h_S128x13x64 : 0 < S128x13x64.numel
  shapeCasts_S128x13x64_S128x13x64 : S128x13x64.ShapeCasts S128x13x64
  slices_S128x32x64_o0_19_0_S128x1x64 : S128x32x64.Slices ![0, 19, 0] S128x1x64
  slices_S128x32x64_o0_20_0_S128x12x64 : S128x32x64.Slices ![0, 20, 0] S128x12x64
  broadcasts_S128x1x64_S128x12x64 : S128x1x64.Broadcasts S128x12x64
  inb_S128x496x64_S128x12x64_0_418_0 : ∀ a, (![0, 418, 0] : Fin 3 → Nat) a + S128x12x64.size a ≤ S128x496x64.size a
  h_S128x12x64 : 0 < S128x12x64.numel
  shapeCasts_S128x12x64_S128x12x64 : S128x12x64.ShapeCasts S128x12x64
  slices_S128x32x64_o0_20_0_S128x1x64 : S128x32x64.Slices ![0, 20, 0] S128x1x64
  slices_S128x32x64_o0_21_0_S128x11x64 : S128x32x64.Slices ![0, 21, 0] S128x11x64
  broadcasts_S128x1x64_S128x11x64 : S128x1x64.Broadcasts S128x11x64
  inb_S128x496x64_S128x11x64_0_430_0 : ∀ a, (![0, 430, 0] : Fin 3 → Nat) a + S128x11x64.size a ≤ S128x496x64.size a
  h_S128x11x64 : 0 < S128x11x64.numel
  shapeCasts_S128x11x64_S128x11x64 : S128x11x64.ShapeCasts S128x11x64
  slices_S128x32x64_o0_21_0_S128x1x64 : S128x32x64.Slices ![0, 21, 0] S128x1x64
  slices_S128x32x64_o0_22_0_S128x10x64 : S128x32x64.Slices ![0, 22, 0] S128x10x64
  broadcasts_S128x1x64_S128x10x64 : S128x1x64.Broadcasts S128x10x64
  inb_S128x496x64_S128x10x64_0_441_0 : ∀ a, (![0, 441, 0] : Fin 3 → Nat) a + S128x10x64.size a ≤ S128x496x64.size a
  h_S128x10x64 : 0 < S128x10x64.numel
  shapeCasts_S128x10x64_S128x10x64 : S128x10x64.ShapeCasts S128x10x64
  slices_S128x32x64_o0_22_0_S128x1x64 : S128x32x64.Slices ![0, 22, 0] S128x1x64
  slices_S128x32x64_o0_23_0_S128x9x64 : S128x32x64.Slices ![0, 23, 0] S128x9x64
  broadcasts_S128x1x64_S128x9x64 : S128x1x64.Broadcasts S128x9x64
  inb_S128x496x64_S128x9x64_0_451_0 : ∀ a, (![0, 451, 0] : Fin 3 → Nat) a + S128x9x64.size a ≤ S128x496x64.size a
  h_S128x9x64 : 0 < S128x9x64.numel
  shapeCasts_S128x9x64_S128x9x64 : S128x9x64.ShapeCasts S128x9x64
  slices_S128x32x64_o0_23_0_S128x1x64 : S128x32x64.Slices ![0, 23, 0] S128x1x64
  slices_S128x32x64_o0_24_0_S128x8x64 : S128x32x64.Slices ![0, 24, 0] S128x8x64
  broadcasts_S128x1x64_S128x8x64 : S128x1x64.Broadcasts S128x8x64
  inb_S128x496x64_S128x8x64_0_460_0 : ∀ a, (![0, 460, 0] : Fin 3 → Nat) a + S128x8x64.size a ≤ S128x496x64.size a
  h_S128x8x64 : 0 < S128x8x64.numel
  shapeCasts_S128x8x64_S128x8x64 : S128x8x64.ShapeCasts S128x8x64
  slices_S128x32x64_o0_24_0_S128x1x64 : S128x32x64.Slices ![0, 24, 0] S128x1x64
  slices_S128x32x64_o0_25_0_S128x7x64 : S128x32x64.Slices ![0, 25, 0] S128x7x64
  broadcasts_S128x1x64_S128x7x64 : S128x1x64.Broadcasts S128x7x64
  inb_S128x496x64_S128x7x64_0_468_0 : ∀ a, (![0, 468, 0] : Fin 3 → Nat) a + S128x7x64.size a ≤ S128x496x64.size a
  h_S128x7x64 : 0 < S128x7x64.numel
  shapeCasts_S128x7x64_S128x7x64 : S128x7x64.ShapeCasts S128x7x64
  slices_S128x32x64_o0_25_0_S128x1x64 : S128x32x64.Slices ![0, 25, 0] S128x1x64
  slices_S128x32x64_o0_26_0_S128x6x64 : S128x32x64.Slices ![0, 26, 0] S128x6x64
  broadcasts_S128x1x64_S128x6x64 : S128x1x64.Broadcasts S128x6x64
  inb_S128x496x64_S128x6x64_0_475_0 : ∀ a, (![0, 475, 0] : Fin 3 → Nat) a + S128x6x64.size a ≤ S128x496x64.size a
  h_S128x6x64 : 0 < S128x6x64.numel
  shapeCasts_S128x6x64_S128x6x64 : S128x6x64.ShapeCasts S128x6x64
  slices_S128x32x64_o0_26_0_S128x1x64 : S128x32x64.Slices ![0, 26, 0] S128x1x64
  slices_S128x32x64_o0_27_0_S128x5x64 : S128x32x64.Slices ![0, 27, 0] S128x5x64
  broadcasts_S128x1x64_S128x5x64 : S128x1x64.Broadcasts S128x5x64
  inb_S128x496x64_S128x5x64_0_481_0 : ∀ a, (![0, 481, 0] : Fin 3 → Nat) a + S128x5x64.size a ≤ S128x496x64.size a
  h_S128x5x64 : 0 < S128x5x64.numel
  shapeCasts_S128x5x64_S128x5x64 : S128x5x64.ShapeCasts S128x5x64
  slices_S128x32x64_o0_27_0_S128x1x64 : S128x32x64.Slices ![0, 27, 0] S128x1x64
  slices_S128x32x64_o0_28_0_S128x4x64 : S128x32x64.Slices ![0, 28, 0] S128x4x64
  broadcasts_S128x1x64_S128x4x64 : S128x1x64.Broadcasts S128x4x64
  inb_S128x496x64_S128x4x64_0_486_0 : ∀ a, (![0, 486, 0] : Fin 3 → Nat) a + S128x4x64.size a ≤ S128x496x64.size a
  h_S128x4x64 : 0 < S128x4x64.numel
  shapeCasts_S128x4x64_S128x4x64 : S128x4x64.ShapeCasts S128x4x64
  slices_S128x32x64_o0_28_0_S128x1x64 : S128x32x64.Slices ![0, 28, 0] S128x1x64
  slices_S128x32x64_o0_29_0_S128x3x64 : S128x32x64.Slices ![0, 29, 0] S128x3x64
  broadcasts_S128x1x64_S128x3x64 : S128x1x64.Broadcasts S128x3x64
  inb_S128x496x64_S128x3x64_0_490_0 : ∀ a, (![0, 490, 0] : Fin 3 → Nat) a + S128x3x64.size a ≤ S128x496x64.size a
  h_S128x3x64 : 0 < S128x3x64.numel
  shapeCasts_S128x3x64_S128x3x64 : S128x3x64.ShapeCasts S128x3x64
  slices_S128x32x64_o0_29_0_S128x1x64 : S128x32x64.Slices ![0, 29, 0] S128x1x64
  slices_S128x32x64_o0_30_0_S128x2x64 : S128x32x64.Slices ![0, 30, 0] S128x2x64
  broadcasts_S128x1x64_S128x2x64 : S128x1x64.Broadcasts S128x2x64
  inb_S128x496x64_S128x2x64_0_493_0 : ∀ a, (![0, 493, 0] : Fin 3 → Nat) a + S128x2x64.size a ≤ S128x496x64.size a
  h_S128x2x64 : 0 < S128x2x64.numel
  shapeCasts_S128x2x64_S128x2x64 : S128x2x64.ShapeCasts S128x2x64
  slices_S128x32x64_o0_30_0_S128x1x64 : S128x32x64.Slices ![0, 30, 0] S128x1x64
  slices_S128x32x64_o0_31_0_S128x1x64 : S128x32x64.Slices ![0, 31, 0] S128x1x64
  inb_S128x496x64_S128x1x64_0_495_0 : ∀ a, (![0, 495, 0] : Fin 3 → Nat) a + S128x1x64.size a ≤ S128x496x64.size a
  h_S128x1x64 : 0 < S128x1x64.numel
  shapeCasts_S128x1x64_S128x1x64 : S128x1x64.ShapeCasts S128x1x64
  inb_S128x496x64_S128x496x64_0_0_0 : ∀ a, (![0, 0, 0] : Fin 3 → Nat) a + S128x496x64.size a ≤ S128x496x64.size a
  h_S128x496x64 : 0 < S128x496x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S128x496x64_S63488x64 : S128x496x64.ShapeCasts S63488x64
  broadcasts_S1x64_S63488x64 : S1x64.Broadcasts S63488x64
  shapeCasts_S63488x64_S128x496x64 : S63488x64.ShapeCasts S128x496x64
  inb_S64x1_S64x1_0_0 : ∀ a, (![0, 0] : Fin 2 → Nat) a + S64x1.size a ≤ S64x1.size a
  h_S64x1 : 0 < S64x1.numel
  shapeCasts_S64x1_S1x1x64 : S64x1.ShapeCasts S1x1x64
  broadcasts_S1x1x64_S128x496x64 : S1x1x64.Broadcasts S128x496x64
  reduces_S128x496x64_S128x496 : S128x496x64.Reduces [2] S128x496
  shapeCasts_S128x496_S128x496x1 : S128x496.ShapeCasts S128x496x1
  reduces_S128x496x1_S128x1 : S128x496x1.Reduces [1] S128x1
  shapeCasts_S128x1_S128x1x1 : S128x1.ShapeCasts S128x1x1
  broadcasts_S128x1x1_S128x496x1 : S128x1x1.Broadcasts S128x496x1
  broadcasts_S128x496x1_S128x496x64 : S128x496x1.Broadcasts S128x496x64
  reduces_S128x496x64_S128x64 : S128x496x64.Reduces [1] S128x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S63488x64_S64x64_S63488x64_1_0_0_1_n_n_wf : DotDims.WF S63488x64 S64x64 S63488x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S2048x32x64.size a
  hwx0_0 : ∀ i : grid0.Coords, EltTy.bits .f32 = 32 ∨ (Rect.block (s := S2048x32x64) S128x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S2048x1.size a
  hwx0_6 : ∀ i : grid0.Coords, EltTy.bits .f32 = 32 ∨ (Rect.block (s := S2048x1) S128x1.size (cc0_transform_6 i) (hinb0_6 i)).WholeWords (EltTy.packing .f32)

variable [Facts₀]

def dot_S63488x64_S64x64_S63488x64_1_0_0_1_n_n : DotDims S63488x64 S64x64 S63488x64 where
  lhsContracting := [1]
  rhsContracting := [0]
  lhsNonContracting := [0]
  rhsNonContracting := [1]
  lhsBatch := []
  rhsBatch := []
  wf := dot_S63488x64_S64x64_S63488x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x32x64 : Shape := ⟨3, ![2048, 32, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S496 : Shape := ⟨1, ![496]⟩
abbrev S_ : Shape := ⟨0, ![]⟩
abbrev S496x1 : Shape := ⟨2, ![496, 1]⟩
abbrev S2048x496x64 : Shape := ⟨3, ![2048, 496, 64]⟩
abbrev S1x1x64 : Shape := ⟨3, ![1, 1, 64]⟩
abbrev S2048x496x1 : Shape := ⟨3, ![2048, 496, 1]⟩
abbrev S2048x1 : Shape := ⟨2, ![2048, 1]⟩
abbrev S2048x1x1 : Shape := ⟨3, ![2048, 1, 1]⟩
abbrev S2048x64 : Shape := ⟨2, ![2048, 64]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x32x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S64x1, .f32⟩
  | .hbm, ⟨5, _⟩ => ⟨S1, .f32⟩
  | .hbm, ⟨6, _⟩ => ⟨S496, .i32⟩
  | .hbm, ⟨7, _⟩ => ⟨S496, .i32⟩
  | .hbm, ⟨8, _⟩ => ⟨S_, .i32⟩
  | .hbm, ⟨9, _⟩ => ⟨S496, .i32⟩
  | .hbm, ⟨10, _⟩ => ⟨S496, .i1⟩
  | .hbm, ⟨11, _⟩ => ⟨S_, .i32⟩
  | .hbm, ⟨12, _⟩ => ⟨S496, .i32⟩
  | .hbm, ⟨13, _⟩ => ⟨S496, .i32⟩
  | .hbm, ⟨14, _⟩ => ⟨S496, .i32⟩
  | .hbm, ⟨15, _⟩ => ⟨S496x1, .i32⟩
  | .hbm, ⟨16, _⟩ => ⟨S2048x496x64, .f32⟩
  | .hbm, ⟨17, _⟩ => ⟨S_, .i32⟩
  | .hbm, ⟨18, _⟩ => ⟨S496, .i32⟩
  | .hbm, ⟨19, _⟩ => ⟨S496, .i1⟩
  | .hbm, ⟨20, _⟩ => ⟨S_, .i32⟩
  | .hbm, ⟨21, _⟩ => ⟨S496, .i32⟩
  | .hbm, ⟨22, _⟩ => ⟨S496, .i32⟩
  | .hbm, ⟨23, _⟩ => ⟨S496, .i32⟩
  | .hbm, ⟨24, _⟩ => ⟨S496x1, .i32⟩
  | .hbm, ⟨25, _⟩ => ⟨S2048x496x64, .f32⟩
  | .hbm, ⟨26, _⟩ => ⟨S2048x496x64, .f32⟩
  | .hbm, ⟨27, _⟩ => ⟨S2048x496x64, .f32⟩
  | .hbm, ⟨28, _⟩ => ⟨S1x1x64, .f32⟩
  | .hbm, ⟨29, _⟩ => ⟨S2048x496x64, .f32⟩
  | .hbm, ⟨30, _⟩ => ⟨S2048x496x64, .f32⟩
  | .hbm, ⟨31, _⟩ => ⟨S_, .f32⟩
  | .hbm, ⟨32, _⟩ => ⟨S2048x496x64, .f32⟩
  | .hbm, ⟨33, _⟩ => ⟨S2048x496x64, .f32⟩
  | .hbm, ⟨34, _⟩ => ⟨S2048x496x1, .f32⟩
  | .hbm, ⟨35, _⟩ => ⟨S_, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1x1, .f32⟩
  | .hbm, ⟨41, _⟩ => ⟨S2048x496x1, .f32⟩
  | .hbm, ⟨42, _⟩ => ⟨S2048x496x1, .f32⟩
  | .hbm, ⟨43, _⟩ => ⟨S2048x496x1, .f32⟩
  | .hbm, ⟨44, _⟩ => ⟨S_, .f32⟩
  | .hbm, ⟨45, _⟩ => ⟨S2048x1, .f32⟩
  | .hbm, ⟨46, _⟩ => ⟨S2048x1x1, .f32⟩
  | .hbm, ⟨47, _⟩ => ⟨S2048x496x1, .f32⟩
  | .hbm, ⟨48, _⟩ => ⟨S2048x496x1, .f32⟩
  | .hbm, ⟨49, _⟩ => ⟨S2048x496x64, .f32⟩
  | .hbm, ⟨50, _⟩ => ⟨S2048x496x64, .f32⟩
  | .hbm, ⟨51, _⟩ => ⟨S_, .f32⟩
  | .hbm, ⟨52, _⟩ => ⟨S2048x64, .f32⟩
  | .hbm, ⟨53, _⟩ => ⟨S2048x1, .f32⟩
  | .hbm, ⟨54, _⟩ => ⟨S1x1, .f32⟩
  | .hbm, ⟨55, _⟩ => ⟨S2048x1, .f32⟩
  | .hbm, ⟨56, _⟩ => ⟨S2048x1, .f32⟩
  | _, _ => ⟨S2048x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S496 : S_.BroadcastsInDim S496 (![] : Fin 0 → Fin S496.rank)
  bcast_S496_S496x1_0 : S496.BroadcastsInDim S496x1 (![0] : Fin 1 → Fin S496x1.rank)
  bcast_S64_S1x1x64_2 : S64.BroadcastsInDim S1x1x64 (![2] : Fin 1 → Fin S1x1x64.rank)
  bcast_S1x1x64_S2048x496x64_0_1_2 : S1x1x64.BroadcastsInDim S2048x496x64 (![0, 1, 2] : Fin 3 → Fin S2048x496x64.rank)
  bcast_S_S2048x496x64 : S_.BroadcastsInDim S2048x496x64 (![] : Fin 0 → Fin S2048x496x64.rank)
  reducesTo_S2048x496x1_S2048x1_d1 : S2048x496x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x496x1_0_1_2 : S2048x1x1.BroadcastsInDim S2048x496x1 (![0, 1, 2] : Fin 3 → Fin S2048x496x1.rank)
  bcast_S2048x496x1_S2048x496x64_0_1_2 : S2048x496x1.BroadcastsInDim S2048x496x64 (![0, 1, 2] : Fin 3 → Fin S2048x496x64.rank)
  reducesTo_S2048x496x64_S2048x64_d1 : S2048x496x64.ReducesTo [1] S2048x64
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S2048x32x64_S496x1_S2048x496x64_02_1_n_n_1_1_2048164_wf : GatherDims.WF S2048x32x64 S496x1 S2048x496x64 [0, 2] [1] [] [1] [] 1 ![2048, 1, 64]
  dot_S2048x496x64_S64x64_S2048x496x64_2_0_01_1_n_n_wf : DotDims.WF S2048x496x64 S64x64 S2048x496x64 [2] [0] [0, 1] [1] [] []
  dot_S2048x496x64_S64x1_S2048x496x1_2_0_01_1_n_n_wf : DotDims.WF S2048x496x64 S64x1 S2048x496x1 [2] [0] [0, 1] [1] [] []
  dot_S2048x64_S64x1_S2048x1_1_0_0_1_n_n_wf : DotDims.WF S2048x64 S64x1 S2048x1 [1] [0] [0] [1] [] []

variable [Facts₀]

def gather_S2048x32x64_S496x1_S2048x496x64_02_1_n_n_1_1_2048164 : GatherDims S2048x32x64 S496x1 S2048x496x64 where
  offsetDims := [0, 2]
  collapsedSliceDims := [1]
  operandBatchingDims := []
  startIndicesBatchingDims := []
  startIndexMap := [1]
  indexVectorDim := 1
  sliceSizes := ![2048, 1, 64]
  wf := gather_S2048x32x64_S496x1_S2048x496x64_02_1_n_n_1_1_2048164_wf
def dot_S2048x496x64_S64x64_S2048x496x64_2_0_01_1_n_n : DotDims S2048x496x64 S64x64 S2048x496x64 where
  lhsContracting := [2]
  rhsContracting := [0]
  lhsNonContracting := [0, 1]
  rhsNonContracting := [1]
  lhsBatch := []
  rhsBatch := []
  wf := dot_S2048x496x64_S64x64_S2048x496x64_2_0_01_1_n_n_wf
def dot_S2048x496x64_S64x1_S2048x496x1_2_0_01_1_n_n : DotDims S2048x496x64 S64x1 S2048x496x1 where
  lhsContracting := [2]
  rhsContracting := [0]
  lhsNonContracting := [0, 1]
  rhsNonContracting := [1]
  lhsBatch := []
  rhsBatch := []
  wf := dot_S2048x496x64_S64x1_S2048x496x1_2_0_01_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.Spec.lean ====
/-
  The attentional factorization machine, for one batch row, as a function of extended reals.

  A row of `x` is 32 field embeddings of width 64. The 496 pairs `(i, j)`, `i < j < 32`, are listed row by row
  (`(0,1) … (0,31), (1,2) … (30,31)`); the pair at position `p` gives the elementwise product `cross p d`.
  Each pair is scored by a two-layer perceptron, `score p = ∑ a, max (∑ d, cross p d · w1 d a + b1 a) 0 · w2 a`;
  the scores are turned into softmax weights over the pairs (shifted by their maximum, which changes nothing over
  the reals but is part of both programs' text); the products are pooled with those weights and the pooled vector
  goes through one linear layer.

  Two layers: `cross` (the only place the list of pairs enters) and `tail` (everything after it, as a function
  of any 496 × 64 table of products).
-/
import Idealize.ShloMosaic.PureOps.Ideal
import Idealize.ShloMosaic.PureOps.Ideal.Laws
import Idealize.ShloMosaic.Lib.ValueIdx

noncomputable section

namespace Cert.Afm

open Idealize.ShloMosaic Idealize.ShloMosaic.ValueIdx

/-! ## The list of pairs -/

/-- Walking the rows of the strict upper triangle from row `i`: row `i` holds the `31 - i` pairs `(i, i+1) … (i, 31)`;
    position `p` counted from the start of row `i` is in row `i` when `p < 31 - i`, else in a later row. -/
def pairFrom : Nat → Nat → Nat → Nat × Nat
  | 0, i, p => (i, i + 1 + p)
  | fuel + 1, i, p => if p < 31 - i then (i, i + 1 + p) else pairFrom fuel (i + 1) (p - (31 - i))

/-- The pair at position `p` of the whole list. -/
def pairNat (p : Nat) : Nat × Nat := pairFrom 31 0 p

theorem pair_lt : ∀ p : Fin 496, (pairNat p.val).1 < 32 ∧ (pairNat p.val).2 < 32 := by decide +kernel

/-- The smaller and the larger field of the pair at position `p`. -/
def pI (p : Fin 496) : Fin 32 := ⟨(pairNat p.val).1, (pair_lt p).1⟩
def pJ (p : Fin 496) : Fin 32 := ⟨(pairNat p.val).2, (pair_lt p).2⟩

/-- The position at which row `i` starts: `0, 31, 61, 90, …`. -/
def rowStart : Nat → Nat
  | 0 => 0
  | i + 1 => rowStart i + (31 - i)

/-- Row `i` of the list is `(i, i+1), (i, i+2), …`: the pair at position `rowStart i + q`, `q < 31 - i`, is `(i, i + 1 + q)`. -/
theorem pair_row : ∀ (i : Fin 31) (q : Fin 31), q.val < 31 - i.val →
    pairNat (rowStart i.val + q.val) = (i.val, i.val + 1 + q.val) := by decide +kernel

theorem pI_row (i q : Nat) (hi : i < 31) (hq : q < 31 - i) (h : rowStart i + q < 496) :
    (pI ⟨rowStart i + q, h⟩).val = i := by
  have := pair_row ⟨i, hi⟩ ⟨q, by omega⟩ hq
  show (pairNat (rowStart i + q)).1 = i
  rw [this]

theorem pJ_row (i q : Nat) (hi : i < 31) (hq : q < 31 - i) (h : rowStart i + q < 496) :
    (pJ ⟨rowStart i + q, h⟩).val = i + 1 + q := by
  have := pair_row ⟨i, hi⟩ ⟨q, by omega⟩ hq
  show (pairNat (rowStart i + q)).2 = i + 1 + q
  rw [this]

/-! ## One row -/

/-- The word of minus infinity and of zero, as both programs write them. -/
abbrev negInf : EReal := Ideal.ofBits .f32 0xFF800000#32
abbrev zeroW : EReal := Ideal.ofBits .f32 0x00000000#32

/-- The product of the two fields of pair `p`, coordinate by coordinate. -/
def cross (x : Fin 32 → Fin 64 → EReal) (p : Fin 496) (d : Fin 64) : EReal := x (pI p) d * x (pJ p) d

section Tail

variable (cr : Fin 496 → Fin 64 → EReal) (w1 : Fin 64 → Fin 64 → EReal) (b1 : Fin 64 → EReal)
  (w2 : Fin 64 → EReal) (fw : Fin 64 → EReal) (fb : EReal)

/-- The hidden layer of the pair's score: `max (∑ d, cr p d · w1 d a + b1 a) 0`. -/
def hid (p : Fin 496) (a : Fin 64) : EReal := max ((∑ d : Fin 64, cr p d * w1 d a) + b1 a) zeroW

/-- The pair's score. -/
def score (p : Fin 496) : EReal := ∑ a : Fin 64, hid cr w1 b1 p a * w2 a

/-- The largest score (the maximum from minus infinity over the 496 pairs). -/
def peak : EReal := (Finset.univ : Finset (Fin 496)).fold max negInf (score cr w1 b1 w2)

/-- The shifted exponential of a score, their sum, and the softmax weight of the pair. -/
def ex (p : Fin 496) : EReal := Ideal.exp (score cr w1 b1 w2 p - peak cr w1 b1 w2)
def den : EReal := ∑ p : Fin 496, ex cr w1 b1 w2 p
def attn (p : Fin 496) : EReal := Ideal.div (ex cr w1 b1 w2 p) (den cr w1 b1 w2)

/-- The products pooled with the softmax weights. -/
def pooled (d : Fin 64) : EReal := ∑ p : Fin 496, attn cr w1 b1 w2 p * cr p d

/-- The row's result: the pooled vector through the last linear layer. -/
def tail : EReal := (∑ d : Fin 64, pooled cr w1 b1 w2 d * fw d) + fb

end Tail

/-- The whole result, `[2048, 1]`, of the argument arrays: row `b` is `tail` of that row's products. -/
def whole (X : (⟨3, ![2048, 32, 64]⟩ : Shape).Idx → EReal) (W1 : (⟨2, ![64, 64]⟩ : Shape).Idx → EReal)
    (B1 : (⟨1, ![64]⟩ : Shape).Idx → EReal) (W2 FW : (⟨2, ![64, 1]⟩ : Shape).Idx → EReal)
    (FB : (⟨1, ![1]⟩ : Shape).Idx → EReal) : (⟨2, ![2048, 1]⟩ : Shape).Idx → EReal :=
  fun j => tail (cross fun i d => X (ix3 (n0 := 2048) (j 0) i d)) (fun d a => W1 (ix2 d a)) (fun a => B1 (ix1 a))
    (fun a => W2 (ix2 a (0 : Fin 1))) (fun d => FW (ix2 d (0 : Fin 1))) (FB (ix1 (0 : Fin 1)))

end Cert.Afm

end
-- ==== Proof.Scratch.lean ====
/-
  The scratch table of pair products, read back as one function of the block of `x`.

  The body writes the 496 × 64 products of a 128-row block into its scratch buffer row by row of the upper triangle:
  for each field `i` the slab `x[:, i, :] · x[:, i+1 .. 31, :]` goes to the positions `rowStart i … rowStart i + 30 - i`
  of the middle axis. Position `rowStart i + q` of the list of pairs is the pair `(i, i + 1 + q)`, so every slab is a
  block of the one table `crossB X (b, p, d) = X (b, pI p, d) · X (b, pJ p, d)`, and a read of the whole buffer after
  slabs that cover it is that table.
-/
import proofs.«109236_j77601469104538_2_alg».proof.Proof.Gen.KernelIdeal.Skeleton
import proofs.«109236_j77601469104538_2_alg».proof.Proof.Spec
import Idealize.ShloMosaic.Lib.Pipeline.Value
import Idealize.ShloMosaic.Lib.ValueIdx

noncomputable section

namespace Cert.KernelIdeal.Scratch

open Cert.KernelIdeal Cert.KernelIdeal.Gen Idealize.ShloMosaic Idealize.ShloMosaic.ValueIdx Idealize.SL.Sem

/-- The table of pair products of a block of 128 rows. -/
def crossB (X : Vec Ideal S128x32x64 .f32) : Vec Ideal S128x496x64 .f32 :=
  fun j => X (ix3 (n0 := 128) (n1 := 32) (n2 := 64) (j 0) (Cert.Afm.pI (j 1)) (j 2))
    * X (ix3 (n0 := 128) (n1 := 32) (n2 := 64) (j 0) (Cert.Afm.pJ (j 1)) (j 2))

/-- The index arithmetic shared by every slab: at an index `x` of the rectangle at offset `rowStart i` on the middle axis,
    the product of row `i` and row `i + 1 + x₁` of the block at `(x₀, ·, x₂)` is the table at the array index under `x`. -/
theorem piece_core (i L : Nat) (hL : L = 31 - i) (hi : i < 31) (X : Vec Ideal S128x32x64 .f32)
    (inb : ∀ a, (![0, Cert.Afm.rowStart i, 0] : Fin 3 → Nat) a + (![128, L, 64] : Fin 3 → Nat) a ≤ S128x496x64.size a)
    (x : (Rect.unit (s := S128x496x64) ![0, Cert.Afm.rowStart i, 0] ![128, L, 64] inb).shape.Idx)
    (h0 : (x 0).val < 128) (h1 : (x 1).val < 31 - i) (h2 : (x 2).val < 64) :
    X (ix3 (n0 := 128) (n1 := 32) (n2 := 64) ⟨(x 0).val, h0⟩ ⟨i, by omega⟩ ⟨(x 2).val, h2⟩)
        * X (ix3 (n0 := 128) (n1 := 32) (n2 := 64) ⟨(x 0).val, h0⟩ ⟨i + 1 + (x 1).val, by omega⟩ ⟨(x 2).val, h2⟩)
      = crossB X ((Rect.unit (s := S128x496x64) ![0, Cert.Afm.rowStart i, 0] ![128, L, 64] inb).emb x) := by
  subst hL
  have eI : ∀ p : Fin 496, p.val = Cert.Afm.rowStart i + (x 1).val → (Cert.Afm.pI p).val = i := by
    rintro ⟨pv, hlt⟩ hp; simp only at hp; subst hp; exact Cert.Afm.pI_row i _ hi h1 hlt
  have eJ : ∀ p : Fin 496, p.val = Cert.Afm.rowStart i + (x 1).val → (Cert.Afm.pJ p).val = i + 1 + (x 1).val := by
    rintro ⟨pv, hlt⟩ hp; simp only at hp; subst hp; exact Cert.Afm.pJ_row i _ hi h1 hlt
  unfold crossB
  refine congrArg₂ (· * ·) (congrArg X (funext fun a => Fin.ext ?_)) (congrArg X (funext fun a => Fin.ext ?_))
  · match a with
    | ⟨0, _⟩ => show (x 0).val = 0 + 1 * (x 0).val; omega
    | ⟨1, _⟩ => exact (eI _ (by show Cert.Afm.rowStart i + 1 * (x 1).val = _; omega)).symm
    | ⟨2, _⟩ => show (x 2).val = 0 + 1 * (x 2).val; omega
  · match a with
    | ⟨0, _⟩ => show (x 0).val = 0 + 1 * (x 0).val; omega
    | ⟨1, _⟩ => exact (eJ _ (by show Cert.Afm.rowStart i + 1 * (x 1).val = _; omega)).symm
    | ⟨2, _⟩ => show (x 2).val = 0 + 1 * (x 2).val; omega

/-- The slab of field `i` — row `i` of the block spread over `L = 31 - i` rows, times rows `i+1 … 31` — at an index of the
    rectangle it is stored through (offset `rowStart i` on the middle axis) is the table at the array index under it. -/
theorem piece_ok (i L off : Nat) (hoff : off = Cert.Afm.rowStart i) (hL : L = 31 - i) (hi : i < 31)
    (X : Vec Ideal S128x32x64 .f32)
    (inb : ∀ a, (![0, off, 0] : Fin 3 → Nat) a + (![128, L, 64] : Fin 3 → Nat) a ≤ S128x496x64.size a)
    (h1 : S128x32x64.Slices ![0, i, 0] ⟨3, ![128, 1, 64]⟩) (h2 : S128x32x64.Slices ![0, i + 1, 0] ⟨3, ![128, L, 64]⟩)
    (hb : (⟨3, ![128, 1, 64]⟩ : Shape).Broadcasts ⟨3, ![128, L, 64]⟩)
    (hc : (⟨3, ![128, L, 64]⟩ : Shape).ShapeCasts ⟨3, ![128, L, 64]⟩)
    (x : (Rect.unit (s := S128x496x64) ![0, off, 0] ![128, L, 64] inb).shape.Idx) :
    shapeCast ⟨3, ![128, L, 64]⟩ (mulf (F := Ideal) (φ := .f32)
        (broadcastTo ⟨3, ![128, L, 64]⟩ (extractStridedSlice ⟨3, ![128, 1, 64]⟩ ![0, i, 0] X h1) hb)
        (extractStridedSlice ⟨3, ![128, L, 64]⟩ ![0, i + 1, 0] X h2)) hc x
      = crossB X ((Rect.unit (s := S128x496x64) ![0, off, 0] ![128, L, 64] inb).emb x) := by
  subst hoff hL
  rw [shapeCast_self]
  have hx0 : (x 0).val < 128 := (x 0).isLt
  have hx1 : (x 1).val < 31 - i := (x 1).isLt
  have hx2 : (x 2).val < 64 := (x 2).isLt
  show (broadcastTo ⟨3, ![128, 31 - i, 64]⟩ (extractStridedSlice ⟨3, ![128, 1, 64]⟩ ![0, i, 0] X h1) hb x)
      * (extractStridedSlice ⟨3, ![128, 31 - i, 64]⟩ ![0, i + 1, 0] X h2 x) = _
  rw [broadcastTo_apply _ hb x (ix3 (n0 := 128) (n1 := 1) (n2 := 64) ⟨(x 0).val, hx0⟩ 0 ⟨(x 2).val, hx2⟩) (fun a => by
        match a with
        | ⟨0, _⟩ => exact (if_neg (show ¬ (128 : Nat) = 1 by decide)).symm
        | ⟨1, _⟩ => exact (if_pos rfl).symm
        | ⟨2, _⟩ => exact (if_neg (show ¬ (64 : Nat) = 1 by decide)).symm),
    extractStridedSlice_apply _ X h1 _ (ix3 (n0 := 128) (n1 := 32) (n2 := 64) ⟨(x 0).val, hx0⟩ ⟨i, by omega⟩ ⟨(x 2).val, hx2⟩) (fun a => by
        match a with
        | ⟨0, _⟩ => exact (Nat.zero_add _).symm
        | ⟨1, _⟩ => rfl
        | ⟨2, _⟩ => exact (Nat.zero_add _).symm),
    extractStridedSlice_apply _ X h2 x (ix3 (n0 := 128) (n1 := 32) (n2 := 64) ⟨(x 0).val, hx0⟩ ⟨i + 1 + (x 1).val, by omega⟩ ⟨(x 2).val, hx2⟩) (fun a => by
        match a with
        | ⟨0, _⟩ => exact (Nat.zero_add _).symm
        | ⟨1, _⟩ => rfl
        | ⟨2, _⟩ => exact (Nat.zero_add _).symm)]
  exact piece_core i (31 - i) rfl hi X inb x hx0 hx1 hx2

/-- The last slab, of one row: field 30 times field 31, with no spreading. -/
theorem piece_last (X : Vec Ideal S128x32x64 .f32)
    (inb : ∀ a, (![0, 495, 0] : Fin 3 → Nat) a + (![128, 1, 64] : Fin 3 → Nat) a ≤ S128x496x64.size a)
    (h1 : S128x32x64.Slices ![0, 30, 0] ⟨3, ![128, 1, 64]⟩) (h2 : S128x32x64.Slices ![0, 31, 0] ⟨3, ![128, 1, 64]⟩)
    (hc : (⟨3, ![128, 1, 64]⟩ : Shape).ShapeCasts ⟨3, ![128, 1, 64]⟩)
    (x : (Rect.unit (s := S128x496x64) ![0, 495, 0] ![128, 1, 64] inb).shape.Idx) :
    shapeCast ⟨3, ![128, 1, 64]⟩ (mulf (F := Ideal) (φ := .f32)
        (extractStridedSlice ⟨3, ![128, 1, 64]⟩ ![0, 30, 0] X h1) (extractStridedSlice ⟨3, ![128, 1, 64]⟩ ![0, 31, 0] X h2)) hc x
      = crossB X ((Rect.unit (s := S128x496x64) ![0, 495, 0] ![128, 1, 64] inb).emb x) := by
  rw [shapeCast_self]
  have hx0 : (x 0).val < 128 := (x 0).isLt
  have hx1 : (x 1).val < 31 - 30 := (x 1).isLt
  have hx2 : (x 2).val < 64 := (x 2).isLt
  show (extractStridedSlice ⟨3, ![128, 1, 64]⟩ ![0, 30, 0] X h1 x) * (extractStridedSlice ⟨3, ![128, 1, 64]⟩ ![0, 31, 0] X h2 x) = _
  rw [extractStridedSlice_apply _ X h1 x (ix3 (n0 := 128) (n1 := 32) (n2 := 64) ⟨(x 0).val, hx0⟩ ⟨30, by omega⟩ ⟨(x 2).val, hx2⟩) (fun a => by
        match a with
        | ⟨0, _⟩ => exact (Nat.zero_add _).symm
        | ⟨1, _⟩ => show 30 = 30 + (x 1).val; omega
        | ⟨2, _⟩ => exact (Nat.zero_add _).symm),
    extractStridedSlice_apply _ X h2 x (ix3 (n0 := 128) (n1 := 32) (n2 := 64) ⟨(x 0).val, hx0⟩ ⟨30 + 1 + (x 1).val, by omega⟩ ⟨(x 2).val, hx2⟩) (fun a => by
        match a with
        | ⟨0, _⟩ => exact (Nat.zero_add _).symm
        | ⟨1, _⟩ => show 30 + 1 + (x 1).val = 31 + (x 1).val; omega
        | ⟨2, _⟩ => exact (Nat.zero_add _).symm)]
  exact piece_core 30 1 (by decide) (by decide) X inb x hx0 hx1 hx2

/-- A read of the whole scratch buffer after stores that cover it, each a block of the table, is the table. -/
theorem readCov_of_pieces {sig : RefSig} {κ : Kind} {sp : Space} (v : View sig κ sp S128x496x64 .f32)
    (X : Vec Ideal S128x32x64 .f32) (L : List (View.Piece (Elt Ideal) S128x496x64 .f32))
    (inb : ∀ a, (![0, 0, 0] : Fin 3 → Nat) a + S128x496x64.size a ≤ S128x496x64.size a)
    (hp : ∀ p ∈ L, ∀ x : p.1.shape.Idx, p.2 x = crossB X (p.1.emb x))
    (hc : ∀ y : S128x496x64.Idx, ∃ p ∈ L, y ∈ p.1.set) :
    v.readCov L (Rect.unit (s := S128x496x64) ![0, 0, 0] S128x496x64.size inb).toLoadRect = crossB X := by
  rw [View.readCov_eq_canon']
  funext j
  rw [View.canon_apply_of_pieces (crossB X) L hp _ (hc _)]
  refine congrArg (crossB X) (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

end Cert.KernelIdeal.Scratch

end
-- ==== Proof.OutBlock.lean ====
/-
  What the body leaves in the output block, as a pure term of the blocks it was called with.

  The body's one store to the output block writes the payload of: the scratch table read back whole after the 31 slab
  stores, the weights and biases as loaded. The slabs cover the scratch buffer and each is a block of the table of pair
  products of the `x` block, so the read-back is that table; a load of a whole staging buffer reads its contents.
-/
import proofs.«109236_j77601469104538_2_alg».proof.Proof.Gen.KernelIdeal.Frame
import proofs.«109236_j77601469104538_2_alg».proof.Proof.Scratch
import Idealize.ShloMosaic.Lib.Pipeline.Value

set_option maxRecDepth 16384

noncomputable section

namespace Cert.KernelIdeal.OutBlock

open Cert.KernelIdeal Cert.KernelIdeal.Gen Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body: the payload at the table of pair products of the `x` block, the narrowed first-layer
    weights, the bias row, the narrowed and flattened table, the zero accumulator, and the remaining weights as loaded. -/
theorem out_eq (c : Dev nD) (i : grid0.Coords) (arg1 : Memref sig .tc .vmem S128x32x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x496x64 .f32) (harg8 : arg8.IsWhole)
    (x0 : Vec Ideal S128x32x64 .f32) (x1 : Vec Ideal S64x64 .f32) (x2 : Vec Ideal S1x64 .f32) (x3 : Vec Ideal S64x1 .f32) (x4 : Vec Ideal S64x1 .f32) (x5 : Vec Ideal S1x1 .f32) :
    out0_A_6 (F := Ideal) c i arg1 harg1 arg2 harg2 arg3 harg3 arg4 harg4 arg5 harg5 arg6 harg6 arg7 harg7 arg8 harg8 x0 x1 x2 x3 x4 x5
      = k0_pay1 (Scratch.crossB x0) (k0_pay36 x1) (k0_pay37 x2) (k0_pay38 (Scratch.crossB x0)) (constant S63488x64 .f32 0x00000000#32) x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_run_names
  rw [View.canon_unit_zero hz2]
  simp only [View.readAt_eq_ld, harg1.read_unread, harg2.read_unread, harg3.read_unread, harg4.read_unread, harg5.read_unread, harg6.read_unread,
    View.ld_unit_zero (S := S128x32x64) hz3, View.ld_unit_zero (S := S64x64) hz2, View.ld_unit_zero (S := S1x64) hz2,
    View.ld_unit_zero (S := S64x1) hz2, View.ld_unit_zero (S := S1x1) hz2]
  rw [Scratch.readCov_of_pieces arg8.view x0 _ _ ?hp ?hc]
  case hc => exact View.cover_of_tiledBy _ ![128, 1, 64] (by sl_kernel_rfl)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => Scratch.piece_last x0 inb_S128x496x64_S128x1x64_0_495_0 slices_S128x32x64_o0_30_0_S128x1x64 slices_S128x32x64_o0_31_0_S128x1x64 shapeCasts_S128x1x64_S128x1x64 x
  · exact fun x => Scratch.piece_ok 29 2 493 (by decide) (by decide) (by decide) x0 inb_S128x496x64_S128x2x64_0_493_0 _ _ _ _ x
  · exact fun x => Scratch.piece_ok 28 3 490 (by decide) (by decide) (by decide) x0 inb_S128x496x64_S128x3x64_0_490_0 _ _ _ _ x
  · exact fun x => Scratch.piece_ok 27 4 486 (by decide) (by decide) (by decide) x0 inb_S128x496x64_S128x4x64_0_486_0 _ _ _ _ x
  · exact fun x => Scratch.piece_ok 26 5 481 (by decide) (by decide) (by decide) x0 inb_S128x496x64_S128x5x64_0_481_0 _ _ _ _ x
  · exact fun x => Scratch.piece_ok 25 6 475 (by decide) (by decide) (by decide) x0 inb_S128x496x64_S128x6x64_0_475_0 _ _ _ _ x
  · exact fun x => Scratch.piece_ok 24 7 468 (by decide) (by decide) (by decide) x0 inb_S128x496x64_S128x7x64_0_468_0 _ _ _ _ x
  · exact fun x => Scratch.piece_ok 23 8 460 (by decide) (by decide) (by decide) x0 inb_S128x496x64_S128x8x64_0_460_0 _ _ _ _ x
  · exact fun x => Scratch.piece_ok 22 9 451 (by decide) (by decide) (by decide) x0 inb_S128x496x64_S128x9x64_0_451_0 _ _ _ _ x
  · exact fun x => Scratch.piece_ok 21 10 441 (by decide) (by decide) (by decide) x0 inb_S128x496x64_S128x10x64_0_441_0 _ _ _ _ x
  · exact fun x => Scratch.piece_ok 20 11 430 (by decide) (by decide) (by decide) x0 inb_S128x496x64_S128x11x64_0_430_0 _ _ _ _ x
  · exact fun x => Scratch.piece_ok 19 12 418 (by decide) (by decide) (by decide) x0 inb_S128x496x64_S128x12x64_0_418_0 _ _ _ _ x
  · exact fun x => Scratch.piece_ok 18 13 405 (by decide) (by decide) (by decide) x0 inb_S128x496x64_S128x13x64_0_405_0 _ _ _ _ x
  · exact fun x => Scratch.piece_ok 17 14 391 (by decide) (by decide) (by decide) x0 inb_S128x496x64_S128x14x64_0_391_0 _ _ _ _ x
  · exact fun x => Scratch.piece_ok 16 15 376 (by decide) (by decide) (by decide) x0 inb_S128x496x64_S128x15x64_0_376_0 _ _ _ _ x
  · exact fun x => Scratch.piece_ok 15 16 360 (by decide) (by decide) (by decide) x0 inb_S128x496x64_S128x16x64_0_360_0 _ _ _ _ x
  · exact fun x => Scratch.piece_ok 14 17 343 (by decide) (by decide) (by decide) x0 inb_S128x496x64_S128x17x64_0_343_0 _ _ _ _ x
  · exact fun x => Scratch.piece_ok 13 18 325 (by decide) (by decide) (by decide) x0 inb_S128x496x64_S128x18x64_0_325_0 _ _ _ _ x
  · exact fun x => Scratch.piece_ok 12 19 306 (by decide) (by decide) (by decide) x0 inb_S128x496x64_S128x19x64_0_306_0 _ _ _ _ x
  · exact fun x => Scratch.piece_ok 11 20 286 (by decide) (by decide) (by decide) x0 inb_S128x496x64_S128x20x64_0_286_0 _ _ _ _ x
  · exact fun x => Scratch.piece_ok 10 21 265 (by decide) (by decide) (by decide) x0 inb_S128x496x64_S128x21x64_0_265_0 _ _ _ _ x
  · exact fun x => Scratch.piece_ok 9 22 243 (by decide) (by decide) (by decide) x0 inb_S128x496x64_S128x22x64_0_243_0 _ _ _ _ x
  · exact fun x => Scratch.piece_ok 8 23 220 (by decide) (by decide) (by decide) x0 inb_S128x496x64_S128x23x64_0_220_0 _ _ _ _ x
  · exact fun x => Scratch.piece_ok 7 24 196 (by decide) (by decide) (by decide) x0 inb_S128x496x64_S128x24x64_0_196_0 _ _ _ _ x
  · exact fun x => Scratch.piece_ok 6 25 171 (by decide) (by decide) (by decide) x0 inb_S128x496x64_S128x25x64_0_171_0 _ _ _ _ x
  · exact fun x => Scratch.piece_ok 5 26 145 (by decide) (by decide) (by decide) x0 inb_S128x496x64_S128x26x64_0_145_0 _ _ _ _ x
  · exact fun x => Scratch.piece_ok 4 27 118 (by decide) (by decide) (by decide) x0 inb_S128x496x64_S128x27x64_0_118_0 _ _ _ _ x
  · exact fun x => Scratch.piece_ok 3 28 90 (by decide) (by decide) (by decide) x0 inb_S128x496x64_S128x28x64_0_90_0 _ _ _ _ x
  · exact fun x => Scratch.piece_ok 2 29 61 (by decide) (by decide) (by decide) x0 inb_S128x496x64_S128x29x64_0_61_0 _ _ _ _ x
  · exact fun x => Scratch.piece_ok 1 30 31 (by decide) (by decide) (by decide) x0 inb_S128x496x64_S128x30x64_0_31_0 _ _ _ _ x
  · exact fun x => Scratch.piece_ok 0 31 0 (by decide) (by decide) (by decide) x0 inb_S128x496x64_S128x31x64_0_0_0 _ _ _ _ x

end Cert.KernelIdeal.OutBlock

end
-- ==== Proof.PayLayout.lean ====
/-
  Reshapes and broadcasts of small ranks, read at an index given by its coordinates.

  A reshape keeps the row-major position. So an `[a, b, c]` array flattened to `[a·b, c]` has row `i·b + j` of the
  flat array at `(i, j)`, and the other way round; a trailing or an inner axis of extent one adds nothing to the
  position. A broadcast reads the operand at the same coordinates, with `0` on every axis the operand has at extent one.
-/
import Idealize.ShloMosaic.Lib.ValueIdx
import Idealize.ShloMosaic.Lib.ValueLayout

namespace Cert.KernelIdeal.Pay

open Idealize.ShloMosaic Idealize.ShloMosaic.ValueIdx

variable {α : Type}

/-! ## Reshapes -/

/-- An `[a, b, c]` array flattened to `[n, c]` (`n = a·b`) reads, at row `ρ = i·b + j` and column `k`, the array at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (ρ : Fin n)
    (hρ : ρ.val = i.val * b + j.val) : shapeCast ⟨2, ![n, c]⟩ x h (ix2 ρ k) = x (ix3 i j k) :=
  shapeCast_apply x h _ _ (by
    rw [Shape.rowMajor_val_three, Shape.rowMajor_val_two]
    show (i.val * b + j.val) * c + k.val = ρ.val * c + k.val
    rw [hρ])

/-- An `[n, c]` array (`n = a·b`) cut into `[a, b, c]` reads, at `(i, j, k)`, row `ρ = i·b + j` at column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (ρ : Fin n)
    (hρ : ρ.val = i.val * b + j.val) : shapeCast ⟨3, ![a, b, c]⟩ x h (ix3 i j k) = x (ix2 ρ k) :=
  shapeCast_apply x h _ _ (by
    rw [Shape.rowMajor_val_three, Shape.rowMajor_val_two]
    show ρ.val * c + k.val = (i.val * b + j.val) * c + k.val
    rw [hρ])

/-- A column `[a, 1]` laid along the last axis of `[1, 1, a]` reads, at `(u, v, i)`, the column at `(i, 0)`. -/
theorem shapeCast_a1_11a_apply {a : ℕ} (x : (⟨2, ![a, 1]⟩ : Shape).Idx → α)
    (h : (⟨2, ![a, 1]⟩ : Shape).ShapeCasts ⟨3, ![1, 1, a]⟩) (u v : Fin 1) (i : Fin a) :
    shapeCast ⟨3, ![1, 1, a]⟩ x h (ix3 u v i) = x (ix2 i (0 : Fin 1)) :=
  shapeCast_apply x h _ _ (by
    have hu : u.val = 0 := by omega
    have hv : v.val = 0 := by omega
    rw [Shape.rowMajor_val_three, Shape.rowMajor_val_two]
    show i.val * 1 + 0 = (u.val * 1 + v.val) * a + i.val
    rw [hu, hv]; simp)

/-- An `[a, b]` array given a trailing unit axis reads, at `(i, j, u)`, the array at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu]; simp)

/-! ## Broadcasts -/

/-- A `[1, 1, c]` row broadcast to `[a, b, c]` reads, at `(i, j, k)`, the row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, 1, 1]` column broadcast to `[a, b, 1]` reads, at `(i, j, u)`, the column at `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array broadcast along its last axis to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.KernelIdeal.Pay
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.PayHid.lean ====
/-
  The hidden layer of a pair's score, read off the flat matrix product.

  The 128 × 496 product rows are laid out as the 63488 rows of one matrix, row `r·496 + p` for batch row `r` and pair
  `p`. That matrix times the 64 × 64 weights, plus the bias row, clipped below at zero and cut back into
  `[128, 496, 64]`, has at `(r, p, a)` the value `max (∑ d, cr p d · w1 d a + b1 a) 0` of row `r`'s products.
-/
import proofs.«109236_j77601469104538_2_alg».proof.Proof.Gen.KernelIdeal.Skeleton
import proofs.«109236_j77601469104538_2_alg».proof.Proof.Spec
import proofs.«109236_j77601469104538_2_alg».proof.Proof.LibPlainDot
import proofs.«109236_j77601469104538_2_alg».proof.Proof.PayLayout

noncomputable section

namespace Cert.KernelIdeal.Pay

open Cert.KernelIdeal Cert.KernelIdeal.Gen Idealize.ShloMosaic Idealize.ShloMosaic.ValueIdx

/-- The hidden layer at `(r, p, a)`, for any flat left operand `L` whose row `r·496 + p` is the products of pair `p`,
    weights `W` and bias row `B`. -/
theorem hid_apply (crF : Fin 496 → Fin 64 → EReal) (w1 : Fin 64 → Fin 64 → EReal) (b1 : Fin 64 → EReal)
    (L : FVec Ideal S63488x64 .bf16) (W : FVec Ideal S64x64 .bf16) (B : FVec Ideal S1x64 .f32)
    (hb : S1x64.Broadcasts S63488x64) (hc : S63488x64.ShapeCasts S128x496x64) (r : Fin 128)
    (hL : ∀ (p : Fin 496) (k : Fin 64) (ρ : Fin 63488), ρ.val = r.val * 496 + p.val → L (ix2 ρ k) = crF p k)
    (hW : ∀ k a : Fin 64, W (ix2 k a) = w1 k a) (hB : ∀ a : Fin 64, B (ix2 (0 : Fin 1) a) = b1 a)
    (p : Fin 496) (a : Fin 64) :
    shapeCast S128x496x64
        (maximumf
          (addf (matmul dot_S63488x64_S64x64_S63488x64_1_0_0_1_n_n none L W (constant (F := Ideal) S63488x64 .f32 0x00000000#32))
            (broadcastTo S63488x64 B hb))
          (broadcast S63488x64 (Scalar.ofBits (F := Ideal) .f32 0x00000000#32))) hc (ix3 r p a)
      = Cert.Afm.hid crF w1 b1 p a := by
  have hlt : r.val * 496 + p.val < 63488 := by have := r.isLt; have := p.isLt; omega
  refine (shapeCast_nc_abc_apply _ hc r p a ⟨r.val * 496 + p.val, hlt⟩ rfl).trans ?_
  refine (maximumf_apply _ _ _).trans ?_
  unfold Cert.Afm.hid
  refine congrArg₂ max ?_ rfl
  refine (addf_apply _ _ _).trans ?_
  refine congrArg₂ (· + ·) ?_ ?_
  · refine (Idealize.ShloMosaic.PlainDot.matmul_zero_apply dot_S63488x64_S64x64_S63488x64_1_0_0_1_n_n rfl none L W
      ⟨r.val * 496 + p.val, hlt⟩ a).trans ?_
    exact Finset.sum_congr rfl fun k _ => congrArg₂ (· * ·) (hL p k _ rfl) (hW k a)
  · exact (broadcastTo_1b_ab_apply B hb _ a).trans (hB a)

end Cert.KernelIdeal.Pay

end
-- ==== Proof.PayReduce.lean ====
/-
  Sums and maxima of a rank-3 array along one axis, read at an index given by its coordinates.

  Reducing `[a, b, c]` along its last axis leaves `[a, b]`; the entries that reduce to `(i, j)` are `(i, j, k)`,
  `k < c`. Reducing along the middle axis leaves `[a, c]`; the entries that reduce to `(i, k)` are `(i, j, k)`, `j < b`.
  A sum is the finite sum over that coordinate, a maximum the fold of `max` from the accumulator's value.
-/
import Idealize.ShloMosaic.PureOps.Ideal
import Idealize.ShloMosaic.PureOps.Ideal.Laws
import Idealize.ShloMosaic.Lib.ValueIdx

noncomputable section

namespace Cert.KernelIdeal.Pay

open Idealize.ShloMosaic Idealize.ShloMosaic.ValueIdx

/-- The source index over `(i, j)` with coordinate `k` on the reduced last axis is `(i, j, k)`. -/
theorem lift_last {a b c : ℕ} (h : (⟨3, ![a, b, c]⟩ : Shape).Reduces [2] ⟨2, ![a, b]⟩) (i : Fin a) (j : Fin b)
    (k : Fin c) : h.lift (ix2 i j) k = ix3 i j k := by
  funext ax
  apply Fin.ext
  refine (h.lift_val (ix2 i j) k ax).trans ?_
  match ax with
  | ⟨0, _⟩ => rfl
  | ⟨1, _⟩ => rfl
  | ⟨2, _⟩ => rfl

/-- The source index over `(i, k)` with coordinate `j` on the reduced middle axis is `(i, j, k)`. -/
theorem lift_mid {a b c : ℕ} (h : (⟨3, ![a, b, c]⟩ : Shape).Reduces [1] ⟨2, ![a, c]⟩) (i : Fin a) (k : Fin c)
    (j : Fin b) : h.lift (ix2 i k) j = ix3 i j k := by
  funext ax
  apply Fin.ext
  refine (h.lift_val (ix2 i k) j ax).trans ?_
  match ax with
  | ⟨0, _⟩ => rfl
  | ⟨1, _⟩ => rfl
  | ⟨2, _⟩ => rfl

/-- The sum along the last axis at `(i, j)`. -/
theorem multiReduction_add_last {a b c : ℕ} (x : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction (F := Ideal) .add [2] ⟨2, ![a, b]⟩ x 0x00000000#32 h hφ hacc (ix2 i j) = ∑ k : Fin c, x (ix3 i j k) := by
  refine (Ideal.multiReduction_add_single x 0x00000000#32 h hφ hacc (ix2 i j)).trans ?_
  exact Finset.sum_congr rfl fun k _ => congrArg x (lift_last h i j k)

/-- The sum along the middle axis at `(i, k)`. -/
theorem multiReduction_add_mid {a b c : ℕ} (x : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction (F := Ideal) .add [1] ⟨2, ![a, c]⟩ x 0x00000000#32 h hφ hacc (ix2 i k) = ∑ j : Fin b, x (ix3 i j k) := by
  refine (Ideal.multiReduction_add_single x 0x00000000#32 h hφ hacc (ix2 i k)).trans ?_
  exact Finset.sum_congr rfl fun j _ => congrArg x (lift_mid h i k j)

/-- The maximum along the middle axis at `(i, k)`: the fold of `max` from the value of the accumulator's word. -/
theorem multiReduction_maximumf_mid {a b c : ℕ} (x : FVec Ideal ⟨3, ![a, b, c]⟩ .f32)
    (h : (⟨3, ![a, b, c]⟩ : Shape).Reduces [1] ⟨2, ![a, c]⟩) (hφ : FKind.Formats .f32)
    (hacc : (0xFF800000#32 : BitVec 32) = 0xFF800000#32) (i : Fin a) (k : Fin c) :
    multiReduction (F := Ideal) .maximumf [1] ⟨2, ![a, c]⟩ x 0xFF800000#32 h hφ hacc (ix2 i k)
      = (Finset.univ : Finset (Fin b)).fold max (Ideal.ofBits .f32 0xFF800000#32) (fun j => x (ix3 i j k)) := by
  refine (Ideal.multiReduction_maximumf_single x 0xFF800000#32 h hφ hacc (ix2 i k)).trans ?_
  exact congrArg (fun f => (Finset.univ : Finset (Fin b)).fold max (Ideal.ofBits .f32 0xFF800000#32) f)
    (funext fun j => congrArg x (lift_mid h i k j))

end Cert.KernelIdeal.Pay

end
-- ==== Proof.PayScore.lean ====
/-
  A pair's score: the hidden layer times the second-layer weights, summed over the 64 hidden units.

  The second-layer weights come as a `[64, 1]` column; laid along the last axis and repeated over rows and pairs they
  multiply the hidden layer entry by entry, and the sum over the last axis is the score of pair `p` of row `r`.
-/
import proofs.«109236_j77601469104538_2_alg».proof.Proof.Gen.KernelIdeal.Skeleton
import proofs.«109236_j77601469104538_2_alg».proof.Proof.Spec
import proofs.«109236_j77601469104538_2_alg».proof.Proof.PayLayout
import proofs.«109236_j77601469104538_2_alg».proof.Proof.PayReduce

noncomputable section

namespace Cert.KernelIdeal.Pay

open Cert.KernelIdeal Cert.KernelIdeal.Gen Idealize.ShloMosaic Idealize.ShloMosaic.ValueIdx

/-- The score at `(r, p)` (kept with a trailing unit axis), for any array `H` that holds the hidden layer of row `r`. -/
theorem score_apply (crF : Fin 496 → Fin 64 → EReal) (w1 : Fin 64 → Fin 64 → EReal) (b1 w2 : Fin 64 → EReal)
    (H : FVec Ideal S128x496x64 .f32) (x3 : FVec Ideal S64x1 .f32)
    (h1 : S64x1.ShapeCasts S1x1x64) (h2 : S1x1x64.Broadcasts S128x496x64) (h3 : S128x496x64.Reduces [2] S128x496)
    (hφ : FKind.Formats .f32) (hacc : (0x00000000#32 : BitVec 32) = 0x00000000#32)
    (h4 : S128x496.ShapeCasts S128x496x1) (r : Fin 128)
    (hH : ∀ (p : Fin 496) (a : Fin 64), H (ix3 r p a) = Cert.Afm.hid crF w1 b1 p a)
    (hx3 : ∀ a : Fin 64, x3 (ix2 a (0 : Fin 1)) = w2 a) (p : Fin 496) (u : Fin 1) :
    shapeCast S128x496x1
        (multiReduction (F := Ideal) .add [2] S128x496
          (mulf H (broadcastTo S128x496x64 (shapeCast S1x1x64 x3 h1) h2)) 0x00000000#32 h3 hφ hacc) h4 (ix3 r p u)
      = Cert.Afm.score crF w1 b1 w2 p := by
  refine (shapeCast_ab_ab1_apply _ h4 r p u).trans ?_
  refine (multiReduction_add_last _ h3 hφ hacc r p).trans ?_
  unfold Cert.Afm.score
  refine Finset.sum_congr rfl fun a _ => ?_
  refine (mulf_apply _ _ _).trans ?_
  refine congrArg₂ (· * ·) (hH p a) ?_
  refine (broadcastTo_11c_abc_apply _ h2 r p a).trans ?_
  exact (shapeCast_a1_11a_apply x3 h1 0 0 a).trans (hx3 a)

end Cert.KernelIdeal.Pay

end
-- ==== Proof.PaySoftmax.lean ====
/-
  The softmax over the 496 pairs of one batch row.

  The scores are kept as a `[128, 496, 1]` array. Their maximum along the pairs (from the word of minus infinity), put
  back over the pairs, is subtracted; the exponentials are summed along the pairs and each is divided by that sum. At
  `(r, p, 0)` that is the softmax weight of pair `p` among the pairs of row `r`.
-/
import proofs.«109236_j77601469104538_2_alg».proof.Proof.Gen.KernelIdeal.Skeleton
import proofs.«109236_j77601469104538_2_alg».proof.Proof.Spec
import proofs.«109236_j77601469104538_2_alg».proof.Proof.PayLayout
import proofs.«109236_j77601469104538_2_alg».proof.Proof.PayReduce

noncomputable section

namespace Cert.KernelIdeal.Pay

open Cert.KernelIdeal Cert.KernelIdeal.Gen Idealize.ShloMosaic Idealize.ShloMosaic.ValueIdx

/-- The largest score of row `r`, as the kernel repeats it over the pairs. -/
theorem peak_apply (crF : Fin 496 → Fin 64 → EReal) (w1 : Fin 64 → Fin 64 → EReal) (b1 w2 : Fin 64 → EReal)
    (S : FVec Ideal S128x496x1 .f32) (h1 : S128x496x1.Reduces [1] S128x1) (hφ : FKind.Formats .f32)
    (hacc : (0xFF800000#32 : BitVec 32) = 0xFF800000#32) (h2 : S128x1.ShapeCasts S128x1x1)
    (h3 : S128x1x1.Broadcasts S128x496x1) (r : Fin 128)
    (hS : ∀ p : Fin 496, S (ix3 r p (0 : Fin 1)) = Cert.Afm.score crF w1 b1 w2 p) (p : Fin 496) (u : Fin 1) :
    broadcastTo S128x496x1
        (shapeCast S128x1x1 (multiReduction (F := Ideal) .maximumf [1] S128x1 S 0xFF800000#32 h1 hφ hacc) h2) h3 (ix3 r p u)
      = Cert.Afm.peak crF w1 b1 w2 := by
  refine (broadcastTo_a11_ab1_apply _ h3 r p u).trans ?_
  refine (shapeCast_ab_ab1_apply _ h2 r (0 : Fin 1) (0 : Fin 1)).trans ?_
  refine (multiReduction_maximumf_mid S h1 hφ hacc r (0 : Fin 1)).trans ?_
  unfold Cert.Afm.peak
  exact congrArg (fun f => (Finset.univ : Finset (Fin 496)).fold max Cert.Afm.negInf f) (funext hS)

/-- The shifted exponential of the score of pair `p`. -/
theorem ex_apply (crF : Fin 496 → Fin 64 → EReal) (w1 : Fin 64 → Fin 64 → EReal) (b1 w2 : Fin 64 → EReal)
    (S M : FVec Ideal S128x496x1 .f32) (r : Fin 128)
    (hS : ∀ p : Fin 496, S (ix3 r p (0 : Fin 1)) = Cert.Afm.score crF w1 b1 w2 p)
    (hM : ∀ p : Fin 496, M (ix3 r p (0 : Fin 1)) = Cert.Afm.peak crF w1 b1 w2) (p : Fin 496) :
    exp (subf S M) (ix3 r p (0 : Fin 1)) = Cert.Afm.ex crF w1 b1 w2 p := by
  unfold Cert.Afm.ex
  show Ideal.exp (S (ix3 r p (0 : Fin 1)) - M (ix3 r p (0 : Fin 1))) = _
  exact congrArg Ideal.exp (congrArg₂ (· - ·) (hS p) (hM p))

/-- The sum of the shifted exponentials of row `r`, as the kernel repeats it over the pairs. -/
theorem den_apply (crF : Fin 496 → Fin 64 → EReal) (w1 : Fin 64 → Fin 64 → EReal) (b1 w2 : Fin 64 → EReal)
    (E : FVec Ideal S128x496x1 .f32) (h1 : S128x496x1.Reduces [1] S128x1) (hφ : FKind.Formats .f32)
    (hacc : (0x00000000#32 : BitVec 32) = 0x00000000#32) (h2 : S128x1.ShapeCasts S128x1x1)
    (h3 : S128x1x1.Broadcasts S128x496x1) (r : Fin 128)
    (hE : ∀ p : Fin 496, E (ix3 r p (0 : Fin 1)) = Cert.Afm.ex crF w1 b1 w2 p) (p : Fin 496) (u : Fin 1) :
    broadcastTo S128x496x1
        (shapeCast S128x1x1 (multiReduction (F := Ideal) .add [1] S128x1 E 0x00000000#32 h1 hφ hacc) h2) h3 (ix3 r p u)
      = Cert.Afm.den crF w1 b1 w2 := by
  refine (broadcastTo_a11_ab1_apply _ h3 r p u).trans ?_
  refine (shapeCast_ab_ab1_apply _ h2 r (0 : Fin 1) (0 : Fin 1)).trans ?_
  refine (multiReduction_add_mid E h1 hφ hacc r (0 : Fin 1)).trans ?_
  unfold Cert.Afm.den
  exact Finset.sum_congr rfl fun q _ => hE q

/-- The softmax weight of pair `p`. -/
theorem attn_apply (crF : Fin 496 → Fin 64 → EReal) (w1 : Fin 64 → Fin 64 → EReal) (b1 w2 : Fin 64 → EReal)
    (E D : FVec Ideal S128x496x1 .f32) (r : Fin 128)
    (hE : ∀ p : Fin 496, E (ix3 r p (0 : Fin 1)) = Cert.Afm.ex crF w1 b1 w2 p)
    (hD : ∀ p : Fin 496, D (ix3 r p (0 : Fin 1)) = Cert.Afm.den crF w1 b1 w2) (p : Fin 496) :
    divf E D (ix3 r p (0 : Fin 1)) = Cert.Afm.attn crF w1 b1 w2 p := by
  refine (divf_apply _ _ _).trans ?_
  unfold Cert.Afm.attn
  exact congrArg₂ Ideal.div (hE p) (hD p)

end Cert.KernelIdeal.Pay

end
-- ==== Proof.PayPool.lean ====
/-
  The pooling of the products with the softmax weights, and the last linear layer.

  The weights `[128, 496, 1]` are repeated along the 64 coordinates and multiply the products entry by entry; the sum
  along the pairs is the pooled vector of row `r`. That `[128, 64]` matrix times the `[64, 1]` last-layer weights, plus
  the one bias entry repeated over the rows, is the row's result.
-/
import proofs.«109236_j77601469104538_2_alg».proof.Proof.Gen.KernelIdeal.Skeleton
import proofs.«109236_j77601469104538_2_alg».proof.Proof.Spec
import proofs.«109236_j77601469104538_2_alg».proof.Proof.LibPlainDot
import proofs.«109236_j77601469104538_2_alg».proof.Proof.PayLayout
import proofs.«109236_j77601469104538_2_alg».proof.Proof.PayReduce

noncomputable section

namespace Cert.KernelIdeal.Pay

open Cert.KernelIdeal Cert.KernelIdeal.Gen Idealize.ShloMosaic Idealize.ShloMosaic.ValueIdx

/-- The pooled vector at `(r, d)`, for any array `A` that holds the softmax weights of row `r`. -/
theorem pooled_apply (crF : Fin 496 → Fin 64 → EReal) (w1 : Fin 64 → Fin 64 → EReal) (b1 w2 : Fin 64 → EReal)
    (A : FVec Ideal S128x496x1 .f32) (cr : FVec Ideal S128x496x64 .f32) (hb : S128x496x1.Broadcasts S128x496x64)
    (h : S128x496x64.Reduces [1] S128x64) (hφ : FKind.Formats .f32) (hacc : (0x00000000#32 : BitVec 32) = 0x00000000#32)
    (r : Fin 128) (hA : ∀ p : Fin 496, A (ix3 r p (0 : Fin 1)) = Cert.Afm.attn crF w1 b1 w2 p)
    (hcr : ∀ (p : Fin 496) (d : Fin 64), cr (ix3 r p d) = crF p d) (d : Fin 64) :
    multiReduction (F := Ideal) .add [1] S128x64 (mulf (broadcastTo S128x496x64 A hb) cr) 0x00000000#32 h hφ hacc (ix2 r d)
      = Cert.Afm.pooled crF w1 b1 w2 d := by
  refine (multiReduction_add_mid _ h hφ hacc r d).trans ?_
  unfold Cert.Afm.pooled
  refine Finset.sum_congr rfl fun p _ => ?_
  refine (mulf_apply _ _ _).trans ?_
  exact congrArg₂ (· * ·) ((broadcastTo_ab1_abc_apply A hb r p d).trans (hA p)) (hcr p d)

/-- The row's result at `(r, 0)`, for any matrix `P` whose row `r` is the pooled vector. -/
theorem tail_apply (crF : Fin 496 → Fin 64 → EReal) (w1 : Fin 64 → Fin 64 → EReal) (b1 w2 : Fin 64 → EReal) (fw : Fin 64 → EReal) (fb : EReal)
    (P : FVec Ideal S128x64 .f32) (x4 : FVec Ideal S64x1 .f32) (x5 : FVec Ideal S1x1 .f32)
    (h1 : S1x1.ShapeCasts S1x1) (h2 : S1x1.Broadcasts S128x1) (r : Fin 128)
    (hP : ∀ d : Fin 64, P (ix2 r d) = Cert.Afm.pooled crF w1 b1 w2 d)
    (hx4 : ∀ d : Fin 64, x4 (ix2 d (0 : Fin 1)) = fw d) (hx5 : x5 (ix2 (0 : Fin 1) (0 : Fin 1)) = fb) (z : Fin 1) :
    addf (matmul dot_S128x64_S64x1_S128x1_1_0_0_1_n_n none P x4 (constant (F := Ideal) S128x1 .f32 0x00000000#32))
        (broadcastTo S128x1 (shapeCast S1x1 x5 h1) h2) (ix2 r z)
      = Cert.Afm.tail crF w1 b1 w2 fw fb := by
  obtain rfl : z = 0 := Subsingleton.elim _ _
  refine (addf_apply _ _ _).trans ?_
  unfold Cert.Afm.tail
  refine congrArg₂ (· + ·) ?_ ?_
  · refine (Idealize.ShloMosaic.PlainDot.matmul_zero_apply dot_S128x64_S64x1_S128x1_1_0_0_1_n_n rfl none P x4 r
      (0 : Fin 1)).trans ?_
    exact Finset.sum_congr rfl fun d _ => congrArg₂ (· * ·) (hP d) (hx4 d)
  · refine (broadcastTo_1b_ab_apply _ h2 r (0 : Fin 1)).trans ?_
    exact (congrFun (shapeCast_self x5 h1) _).trans hx5

end Cert.KernelIdeal.Pay

end
-- ==== Proof.PayTail.lean ====
/-
  The kernel body's one stored value, read at `(r, 0)`: the attentional pooling of batch row `r`.

  The stored `[128, 1]` column is a composition of whole-array operations on the `[128, 496, 64]` table of pair products
  and the five parameter arrays. Row `r` of every intermediate array depends on row `r` of the table only: the hidden
  layer at `(r, p, a)`, the score at `(r, p)`, the row's largest score, the shifted exponentials, their sum, the
  softmax weights, the pooled vector at `(r, d)` and the last linear layer. Each is identified with the corresponding
  function of the row's products in turn.
-/
import proofs.«109236_j77601469104538_2_alg».proof.Proof.Gen.KernelIdeal.Skeleton
import proofs.«109236_j77601469104538_2_alg».proof.Proof.Spec
import proofs.«109236_j77601469104538_2_alg».proof.Proof.PayLayout
import proofs.«109236_j77601469104538_2_alg».proof.Proof.PayHid
import proofs.«109236_j77601469104538_2_alg».proof.Proof.PayScore
import proofs.«109236_j77601469104538_2_alg».proof.Proof.PaySoftmax
import proofs.«109236_j77601469104538_2_alg».proof.Proof.PayPool

noncomputable section

namespace Cert.KernelIdeal.Pay

open Cert.KernelIdeal Cert.KernelIdeal.Gen Idealize.ShloMosaic Idealize.ShloMosaic.ValueIdx

/-- The flattened products (narrowing is the identity on extended reals): row `r·496 + p` holds the products of pair `p` of
    batch row `r`. -/
theorem pay38_apply (cr : Vec Ideal S128x496x64 .f32) (r : Fin 128) (p : Fin 496) (k : Fin 64) (ρ : Fin 63488)
    (hρ : ρ.val = r.val * 496 + p.val) : k0_pay38 (F := Ideal) cr (ix2 ρ k) = cr (ix3 r p k) := by
  unfold k0_pay38
  exact (shapeCast_abc_nc_apply _ Facts₀.shapeCasts_S128x496x64_S63488x64 r p k ρ hρ).trans rfl

/-- The bias row passes through a reshape to its own shape. -/
theorem pay37_apply (x2 : Vec Ideal S1x64 .f32) (a : Fin 64) :
    k0_pay37 (F := Ideal) x2 (ix2 (0 : Fin 1) a) = x2 (ix2 (0 : Fin 1) a) := by
  unfold k0_pay37
  exact congrFun (shapeCast_self x2 Facts₀.shapeCasts_S1x64_S1x64) _

/-- THE STORED VALUE AT `(r, z)` is `Cert.Afm.tail` of row `r`'s products and the parameters. -/
theorem pay1_apply (cr : Vec Ideal S128x496x64 .f32) (x1 : Vec Ideal S64x64 .f32) (x2 : Vec Ideal S1x64 .f32)
    (x3 x4 : Vec Ideal S64x1 .f32) (x5 : Vec Ideal S1x1 .f32) (r : Fin 128) (z : Fin 1) :
    k0_pay1 (F := Ideal) cr (k0_pay36 x1) (k0_pay37 x2) (k0_pay38 cr) (constant (F := Ideal) S63488x64 .f32 0x00000000#32)
        x3 x4 x5 (ix2 r z)
      = Cert.Afm.tail (fun p d => cr (ix3 r p d)) (fun d a => x1 (ix2 d a)) (fun a => x2 (ix2 (0 : Fin 1) a))
          (fun a => x3 (ix2 a (0 : Fin 1))) (fun d => x4 (ix2 d (0 : Fin 1))) (x5 (ix2 (0 : Fin 1) (0 : Fin 1))) := by
  -- the hidden layer of row `r`
  have hH := hid_apply (fun p d => cr (ix3 r p d)) (fun d a => x1 (ix2 d a)) (fun a => x2 (ix2 (0 : Fin 1) a))
    (k0_pay38 cr) (k0_pay36 x1) (k0_pay37 x2) Facts₀.broadcasts_S1x64_S63488x64
    Facts₀.shapeCasts_S63488x64_S128x496x64 r (fun p k ρ hρ => pay38_apply cr r p k ρ hρ) (fun _ _ => rfl)
    (fun a => pay37_apply x2 a)
  -- the scores
  have hS := fun p => score_apply (fun p d => cr (ix3 r p d)) (fun d a => x1 (ix2 d a)) (fun a => x2 (ix2 (0 : Fin 1) a))
    (fun a => x3 (ix2 a (0 : Fin 1))) _ x3 Facts₀.shapeCasts_S64x1_S1x1x64 Facts₀.broadcasts_S1x1x64_S128x496x64
    Facts₀.reduces_S128x496x64_S128x496 (.inl rfl) rfl Facts₀.shapeCasts_S128x496_S128x496x1 r hH (fun _ => rfl) p
    (0 : Fin 1)
  -- the largest score, the shifted exponentials, their sum, the softmax weights
  have hM := fun p => peak_apply _ _ _ _ _ Facts₀.reduces_S128x496x1_S128x1 (.inl rfl) rfl
    Facts₀.shapeCasts_S128x1_S128x1x1 Facts₀.broadcasts_S128x1x1_S128x496x1 r hS p (0 : Fin 1)
  have hE := ex_apply _ _ _ _ _ _ r hS hM
  have hD := fun p => den_apply _ _ _ _ _ Facts₀.reduces_S128x496x1_S128x1 (.inl rfl) rfl
    Facts₀.shapeCasts_S128x1_S128x1x1 Facts₀.broadcasts_S128x1x1_S128x496x1 r hE p (0 : Fin 1)
  have hA := attn_apply _ _ _ _ _ _ r hE hD
  -- the pooled vector and the last layer
  have hP := pooled_apply _ _ _ _ _ cr Facts₀.broadcasts_S128x496x1_S128x496x64
    Facts₀.reduces_S128x496x64_S128x64 (.inl rfl) rfl r hA (fun _ _ => rfl)
  unfold k0_pay1
  exact tail_apply _ _ _ _ (fun d => x4 (ix2 d (0 : Fin 1))) (x5 (ix2 (0 : Fin 1) (0 : Fin 1))) _ x4 x5
    Facts₀.shapeCasts_S1x1_S1x1 Facts₀.broadcasts_S1x1_S128x1 r hP (fun _ => rfl) rfl z

end Cert.KernelIdeal.Pay

end
-- ==== Proof.Blocks.lean ====
/-
  What the kernel's input blocks hold, in terms of the argument arrays.

  Grid point `t` (of 16) is called with rows `128 t … 128 t + 127` of `x`; the two weight matrices, the second-layer
  weights and the two biases come whole at every point. The biases reach the kernel through a reshape of @main
  (`[64] → [1, 64]`, `[1] → [1, 1]`), which keeps the row-major position of every entry.
-/
import proofs.«109236_j77601469104538_2_alg».proof.Proof.Gen.KernelIdeal.Value
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The printed index maps over the grid: window 0 and the output move with the point along the rows, every other window stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block `t` of `x`: rows `128 t … 128 t + 127`. -/
theorem blk0_apply (c : Dev nD) (t : Fin cfg0.N) (r : Fin 128) (i : Fin 32) (d : Fin 64) (k : S2048x32x64.Idx)
    (hk0 : (k 0).val = 128 * t.val + r.val) (hk1 : (k 1).val = i.val) (hk2 : (k 2).val = d.val) :
    (iblk m c 0 t : Vec Ideal S128x32x64 .f32) (ix3 r i d) = (m ((c : Thread nD τ).loc main_arg0) : S2048x32x64.Idx → Elt Ideal .f32) k := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 128 + 1 * r.val = (k 0).val; rw [e0, hk0]; omega
  | ⟨1, _⟩ => show win0_0.index t (1 : Fin 3) * 32 + 1 * i.val = (k 1).val; rw [e1, hk1]; omega
  | ⟨2, _⟩ => show win0_0.index t (2 : Fin 3) * 64 + 1 * d.val = (k 2).val; rw [e2, hk2]; omega

end Cert.KernelIdeal.Blocks

end
-- ==== Proof.BlocksRest.lean ====
/-
  The whole-array input blocks of the kernel, in terms of the argument arrays.

  Every window but the first stages its whole array at every grid point, so its block is the array itself. The two
  bias windows stage arrays that the program wrote before the call, by reshaping an argument (`[64] → [1, 64]`,
  `[1] → [1, 1]`); a reshape keeps the row-major position, so entry `(0, a)` of the first is entry `a` of the bias
  vector and the one entry of the second is the one entry of the last bias.
-/
import proofs.«109236_j77601469104538_2_alg».proof.Proof.Blocks

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The arrays written before the call -/

/-- The `[1, 64]` bias row the call finds is the reshape of the `[64]` bias argument. -/
theorem V_main_v0 (c : Dev nD) :
    (V m c main_v0 : S1x64.Idx → Elt Ideal .f32)
      = shapeCast S1x64 (m ((c : Thread nD τ).loc main_arg2)) Facts₀.shapeCasts_S64_S1x64 := by
  dsimp only [Gen.V, Gen.hostOps0]; after_results; rfl

/-- The `[1, 1]` last bias the call finds is the reshape of the `[1]` argument. -/
theorem V_main_v1 (c : Dev nD) :
    (V m c main_v1 : S1x1.Idx → Elt Ideal .f32)
      = shapeCast S1x1 (m ((c : Thread nD τ).loc main_arg5)) Facts₀.shapeCasts_S1_S1x1 := by
  dsimp only [Gen.V, Gen.hostOps0]; after_results; rfl

/-! ## The blocks -/

/-- The first-layer weights come whole at every point. -/
theorem blk1_apply (c : Dev nD) (t : Fin cfg0.N) (d a : Fin 64) :
    (iblk m c 1 t : Vec Ideal S64x64 .f32) (ix2 d a)
      = (m ((c : Thread nD τ).loc main_arg1) : S64x64.Idx → Elt Ideal .f32) (ix2 d a) := by
  obtain ⟨-, -, -, e0, e1, -⟩ := idx_facts t
  unfold iblk
  rw [View.read_apply]
  show V m c main_arg1 _ = _
  rw [V_main_arg1]
  refine congrArg _ (funext fun ax => Fin.ext ?_)
  match ax with
  | ⟨0, _⟩ => show win0_1.index t (0 : Fin 2) * 64 + 1 * d.val = d.val; rw [e0]; omega
  | ⟨1, _⟩ => show win0_1.index t (1 : Fin 2) * 64 + 1 * a.val = a.val; rw [e1]; omega

/-- The bias row at every point: entry `(0, a)` is entry `a` of the bias argument. -/
theorem blk2_apply (c : Dev nD) (t : Fin cfg0.N) (a : Fin 64) :
    (iblk m c 2 t : Vec Ideal S1x64 .f32) (ix2 (0 : Fin 1) a)
      = (m ((c : Thread nD τ).loc main_arg2) : S64.Idx → Elt Ideal .f32) (ix1 a) := by
  obtain ⟨-, -, -, -, -, e0, e1, -⟩ := idx_facts t
  unfold iblk
  rw [View.read_apply]
  show V m c main_v0 _ = _
  refine (congrFun (V_main_v0 m c) _).trans ?_
  refine shapeCast_apply _ _ _ (ix1 a) ?_
  rw [Shape.rowMajor_val_one, Shape.rowMajor_val_two]
  show a.val = (win0_2.index t (0 : Fin 2) * 1 + 1 * 0) * 64 + (win0_2.index t (1 : Fin 2) * 64 + 1 * a.val)
  rw [e0, e1]; omega

/-- The second-layer weights come whole at every point. -/
theorem blk3_apply (c : Dev nD) (t : Fin cfg0.N) (a : Fin 64) :
    (iblk m c 3 t : Vec Ideal S64x1 .f32) (ix2 a (0 : Fin 1))
      = (m ((c : Thread nD τ).loc main_arg3) : S64x1.Idx → Elt Ideal .f32) (ix2 a (0 : Fin 1)) := by
  obtain ⟨-, -, -, -, -, -, -, e0, e1, -⟩ := idx_facts t
  unfold iblk
  rw [View.read_apply]
  show V m c main_arg3 _ = _
  rw [V_main_arg3]
  refine congrArg _ (funext fun ax => Fin.ext ?_)
  match ax with
  | ⟨0, _⟩ => show win0_3.index t (0 : Fin 2) * 64 + 1 * a.val = a.val; rw [e0]; omega
  | ⟨1, _⟩ => show win0_3.index t (1 : Fin 2) * 1 + 1 * 0 = 0; rw [e1]

/-- The last-layer weights come whole at every point. -/
theorem blk4_apply (c : Dev nD) (t : Fin cfg0.N) (d : Fin 64) :
    (iblk m c 4 t : Vec Ideal S64x1 .f32) (ix2 d (0 : Fin 1))
      = (m ((c : Thread nD τ).loc main_arg4) : S64x1.Idx → Elt Ideal .f32) (ix2 d (0 : Fin 1)) := by
  obtain ⟨-, -, -, -, -, -, -, -, -, e0, e1, -⟩ := idx_facts t
  unfold iblk
  rw [View.read_apply]
  show V m c main_arg4 _ = _
  rw [V_main_arg4]
  refine congrArg _ (funext fun ax => Fin.ext ?_)
  match ax with
  | ⟨0, _⟩ => show win0_4.index t (0 : Fin 2) * 64 + 1 * d.val = d.val; rw [e0]; omega
  | ⟨1, _⟩ => show win0_4.index t (1 : Fin 2) * 1 + 1 * 0 = 0; rw [e1]

/-- The last bias at every point: its one entry is the one entry of the argument. -/
theorem blk5_apply (c : Dev nD) (t : Fin cfg0.N) :
    (iblk m c 5 t : Vec Ideal S1x1 .f32) (ix2 (0 : Fin 1) (0 : Fin 1))
      = (m ((c : Thread nD τ).loc main_arg5) : S1.Idx → Elt Ideal .f32) (ix1 (0 : Fin 1)) := by
  obtain ⟨-, -, -, -, -, -, -, -, -, -, -, e0, e1, -⟩ := idx_facts t
  unfold iblk
  rw [View.read_apply]
  show V m c main_v1 _ = _
  refine (congrFun (V_main_v1 m c) _).trans ?_
  refine shapeCast_apply _ _ _ (ix1 (0 : Fin 1)) ?_
  rw [Shape.rowMajor_val_one, Shape.rowMajor_val_two]
  show 0 = (win0_5.index t (0 : Fin 2) * 1 + 1 * 0) * 1 + (win0_5.index t (1 : Fin 2) * 1 + 1 * 0)
  rw [e0, e1]

end Cert.KernelIdeal.Blocks

end
-- ==== Proof.KernelWhole.lean ====
/-
  The kernel's result array as one function of the argument arrays.

  Grid point `t` writes back rows `128 t … 128 t + 127` of the result. At row `r` of its block the body's payload is the
  row function `tail` of the table of pair products of that row of the `x` block; the block of `x` is rows
  `128 t …` of the argument, the weights and biases are the arguments themselves; so what the point writes back is block
  `t` of `whole` of the arguments. The sixteen blocks cover the 2048 rows (row `b` is in block `b / 128`), so the array
  ends holding `whole` of the arguments.
-/
import proofs.«109236_j77601469104538_2_alg».proof.Proof.Gen.KernelIdeal.Value
import proofs.«109236_j77601469104538_2_alg».proof.Proof.OutBlock
import proofs.«109236_j77601469104538_2_alg».proof.Proof.PayTail
import proofs.«109236_j77601469104538_2_alg».proof.Proof.Blocks
import proofs.«109236_j77601469104538_2_alg».proof.Proof.BlocksRest
import proofs.«109236_j77601469104538_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: the specification at the argument arrays as launched. -/
abbrev result (c : Dev nD) : Buf (Elt Ideal) ((c : Thread nD τ).loc main_v2) :=
  Cert.Afm.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An index of the result is in point `t`'s block iff its row is in `128 t … 128 t + 127`. -/
theorem mem_blk (t : Fin cfg0.N) (i : S2048x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v2).slice (win0_6.rect t)).set ↔ _
  rw [View.set_slice_whole, Rect.mem_set_unit]
  exact Iff.rfl

/-- What point `t` writes back is block `t` of the result. -/
theorem flushed_eq (c : Dev nD) (t : Fin cfg0.N) :
    (dats m 0 c).flushed 6 t = ((cfg0.win 6).blk t).view.read (Elt Ideal) (result m c) := by
  rw [Value.flushed6_A, OutBlock.out_eq]
  obtain ⟨-, -, -, -, -, -, -, -, -, -, -, -, -, e6, -⟩ := Blocks.idx_facts t
  funext y
  obtain ⟨r, z, rfl⟩ : ∃ (r : Fin 128) (z : Fin 1), y = ix2 r z := ⟨y 0, y 1, eq_ix2 y⟩
  have hN : t.val < 16 := Nat.lt_of_lt_of_eq t.isLt N_0
  refine (Pay.pay1_apply (Scratch.crossB (iblk m c 0 t)) (iblk m c 1 t) (iblk m c 2 t) (iblk m c 3 t) (iblk m c 4 t) (iblk m c 5 t) r z).trans ?_
  have h0 : (fun (p : Fin 496) (d : Fin 64) => Scratch.crossB (iblk m c 0 t) (ix3 r p d))
      = Cert.Afm.cross (fun i d => (m ((c : Thread nD τ).loc main_arg0) : S2048x32x64.Idx → Elt Ideal .f32) (ix3 (n0 := 2048) ⟨128 * t.val + r.val, by omega⟩ i d)) :=
    funext fun p => funext fun d => congrArg₂ (fun a b : EReal => a * b)
      (Blocks.blk0_apply m c t r (Cert.Afm.pI p) d (ix3 (n0 := 2048) ⟨128 * t.val + r.val, by omega⟩ (Cert.Afm.pI p) d) rfl rfl rfl)
      (Blocks.blk0_apply m c t r (Cert.Afm.pJ p) d (ix3 (n0 := 2048) ⟨128 * t.val + r.val, by omega⟩ (Cert.Afm.pJ p) d) rfl rfl rfl)
  have h1 : (fun (d a : Fin 64) => (iblk m c 1 t : Vec Ideal S64x64 .f32) (ix2 d a)) = fun d a => (m ((c : Thread nD τ).loc main_arg1) : S64x64.Idx → Elt Ideal .f32) (ix2 d a) :=
    funext fun d => funext fun a => Blocks.blk1_apply m c t d a
  have h2 : (fun (a : Fin 64) => (iblk m c 2 t : Vec Ideal S1x64 .f32) (ix2 (0 : Fin 1) a)) = fun a => (m ((c : Thread nD τ).loc main_arg2) : S64.Idx → Elt Ideal .f32) (ix1 a) :=
    funext fun a => Blocks.blk2_apply m c t a
  have h3 : (fun (a : Fin 64) => (iblk m c 3 t : Vec Ideal S64x1 .f32) (ix2 a (0 : Fin 1))) = fun a => (m ((c : Thread nD τ).loc main_arg3) : S64x1.Idx → Elt Ideal .f32) (ix2 a (0 : Fin 1)) :=
    funext fun a => Blocks.blk3_apply m c t a
  have h4 : (fun (d : Fin 64) => (iblk m c 4 t : Vec Ideal S64x1 .f32) (ix2 d (0 : Fin 1))) = fun d => (m ((c : Thread nD τ).loc main_arg4) : S64x1.Idx → Elt Ideal .f32) (ix2 d (0 : Fin 1)) :=
    funext fun d => Blocks.blk4_apply m c t d
  have h5 : (iblk m c 5 t : Vec Ideal S1x1 .f32) (ix2 (0 : Fin 1) (0 : Fin 1)) = (m ((c : Thread nD τ).loc main_arg5) : S1.Idx → Elt Ideal .f32) (ix1 (0 : Fin 1)) :=
    Blocks.blk5_apply m c t
  rw [h0, h1, h2, h3, h4, h5]
  have hrow : (⟨128 * t.val + r.val, by omega⟩ : Fin 2048) = ((cfg0.win 6).blk t).view.emb (ix2 r z) (0 : Fin 2) :=
    Fin.ext (by show 128 * t.val + r.val = win0_6.index t (0 : Fin 2) * 128 + 1 * r.val; rw [e6]; omega)
  exact congrArg (fun b : Fin 2048 => Cert.Afm.tail
      (Cert.Afm.cross fun i d => (m ((c : Thread nD τ).loc main_arg0) : S2048x32x64.Idx → Elt Ideal .f32) (ix3 (n0 := 2048) b i d))
      (fun d a => (m ((c : Thread nD τ).loc main_arg1) : S64x64.Idx → Elt Ideal .f32) (ix2 d a))
      (fun a => (m ((c : Thread nD τ).loc main_arg2) : S64.Idx → Elt Ideal .f32) (ix1 a))
      (fun a => (m ((c : Thread nD τ).loc main_arg3) : S64x1.Idx → Elt Ideal .f32) (ix2 a (0 : Fin 1)))
      (fun d => (m ((c : Thread nD τ).loc main_arg4) : S64x1.Idx → Elt Ideal .f32) (ix2 d (0 : Fin 1)))
      ((m ((c : Thread nD τ).loc main_arg5) : S1.Idx → Elt Ideal .f32) (ix1 (0 : Fin 1)))) hrow

/-- Every row of the result is in the block of the point `row / 128`. -/
theorem cover (i : S2048x1.Idx) : ∃ t : Fin cfg0.N, (cfg0.win 6).flush t = true ∧ i ∈ ((cfg0.win 6).blk t).view.set := by
  have hi0 : (i 0).val < 2048 := (i 0).isLt
  have hi1 : (i 1).val < 1 := (i 1).isLt
  have hN : cfg0.N = 16 := N_0
  let t : Fin cfg0.N := ⟨(i 0).val / 128, by rw [hN]; omega⟩
  obtain ⟨-, -, -, -, -, -, -, -, -, -, -, -, -, e6, e7⟩ := Blocks.idx_facts t
  have ht : t.val = (i 0).val / 128 := rfl
  refine ⟨t, flush0_6 t, ?_⟩
  rw [mem_blk]
  intro a
  match a with
  | ⟨0, _⟩ => show win0_6.index t (0 : Fin 2) * 128 ≤ (i 0).val ∧ (i 0).val < win0_6.index t (0 : Fin 2) * 128 + 128; rw [e6, ht]; omega
  | ⟨1, _⟩ => show win0_6.index t (1 : Fin 2) * 1 ≤ (i 1).val ∧ (i 1).val < win0_6.index t (1 : Fin 2) * 1 + 1; rw [e7]; omega

/-- The result array after the run. -/
theorem final (c : Dev nD) : (dats m 0 c).arrAt 6 cfg0.N = result m c :=
  (dats m 0 c).arrAt_eq_of_cover 6 (result m c) (fun t _ => flushed_eq m c t) cover

/-- The run: the result array at the specification of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefOps.lean ====
/-
  The reference program as a straight line.

  Its entry function is fifty-one host operations, each writing one buffer from the whole contents of its operands:
  forty-eight of its own and, where it calls the rectifier, that function's three (the zero, its spread over the
  array, the elementwise maximum) over the buffers the call names. Run in order from any memory with zero counters,
  every execution terminates and every buffer ends at the fold of the operations' results over what the memory held
  (`run_after`).
-/
import proofs.«109236_j77601469104538_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fifty-one operations, in order; the rectifier's three stand where it is called. -/
abbrev ops : List (HloOp τ sig (Elt F)) :=
  [ nullary main_c (fun i => lit0 (S496.rowMajor i)),
    nullary main_c_0 (fun i => lit1 (S496.rowMajor i)),
    nullary main_c_1 (constantI S_ 32 0#32),
    unary main_c_1 main_v0 (broadcastInDim S496 ![] bcast_S_S496 : (⟨S_, .i32⟩ : BufTy).Contents (Elt F) → (⟨S496, .i32⟩ : BufTy).Contents (Elt F)),
    binary main_c main_v0 main_v1 (cmpi .slt : (⟨S496, .i32⟩ : BufTy).Contents (Elt F) → (⟨S496, .i32⟩ : BufTy).Contents (Elt F) → (⟨S496, .i1⟩ : BufTy).Contents (Elt F)),
    nullary main_c_2 (constantI S_ 32 32#32),
    unary main_c_2 main_v2 (broadcastInDim S496 ![] bcast_S_S496 : (⟨S_, .i32⟩ : BufTy).Contents (Elt F) → (⟨S496, .i32⟩ : BufTy).Contents (Elt F)),
    binary main_c main_v2 main_v3 (addi : (⟨S496, .i32⟩ : BufTy).Contents (Elt F) → (⟨S496, .i32⟩ : BufTy).Contents (Elt F) → (⟨S496, .i32⟩ : BufTy).Contents (Elt F)),
    ternary main_v1 main_v3 main_c main_v4 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v4 main_v5 (broadcastInDim S496x1 ![0] bcast_S496_S496x1_0 : (⟨S496, .i32⟩ : BufTy).Contents (Elt F) → (⟨S496x1, .i32⟩ : BufTy).Contents (Elt F)),
    binary main_arg0 main_v5 main_v6 ((fun x i => Host.gather gather_S2048x32x64_S496x1_S2048x496x64_02_1_n_n_1_1_2048164 x i) : (⟨S2048x32x64, .f32⟩ : BufTy).Contents (Elt F) → (⟨S496x1, .i32⟩ : BufTy).Contents (Elt F) → (⟨S2048x496x64, .f32⟩ : BufTy).Contents (Elt F)),
    nullary main_c_3 (constantI S_ 32 0#32),
    unary main_c_3 main_v7 (broadcastInDim S496 ![] bcast_S_S496 : (⟨S_, .i32⟩ : BufTy).Contents (Elt F) → (⟨S496, .i32⟩ : BufTy).Contents (Elt F)),
    binary main_c_0 main_v7 main_v8 (cmpi .slt : (⟨S496, .i32⟩ : BufTy).Contents (Elt F) → (⟨S496, .i32⟩ : BufTy).Contents (Elt F) → (⟨S496, .i1⟩ : BufTy).Contents (Elt F)),
    nullary main_c_4 (constantI S_ 32 32#32),
    unary main_c_4 main_v9 (broadcastInDim S496 ![] bcast_S_S496 : (⟨S_, .i32⟩ : BufTy).Contents (Elt F) → (⟨S496, .i32⟩ : BufTy).Contents (Elt F)),
    binary main_c_0 main_v9 main_v10 (addi : (⟨S496, .i32⟩ : BufTy).Contents (Elt F) → (⟨S496, .i32⟩ : BufTy).Contents (Elt F) → (⟨S496, .i32⟩ : BufTy).Contents (Elt F)),
    ternary main_v8 main_v10 main_c_0 main_v11 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v11 main_v12 (broadcastInDim S496x1 ![0] bcast_S496_S496x1_0 : (⟨S496, .i32⟩ : BufTy).Contents (Elt F) → (⟨S496x1, .i32⟩ : BufTy).Contents (Elt F)),
    binary main_arg0 main_v12 main_v13 ((fun x i => Host.gather gather_S2048x32x64_S496x1_S2048x496x64_02_1_n_n_1_1_2048164 x i) : (⟨S2048x32x64, .f32⟩ : BufTy).Contents (Elt F) → (⟨S496x1, .i32⟩ : BufTy).Contents (Elt F) → (⟨S2048x496x64, .f32⟩ : BufTy).Contents (Elt F)),
    binary main_v6 main_v13 main_v14 (mulf : (⟨S2048x496x64, .f32⟩ : BufTy).Contents (Elt F) → (⟨S2048x496x64, .f32⟩ : BufTy).Contents (Elt F) → (⟨S2048x496x64, .f32⟩ : BufTy).Contents (Elt F)),
    binary main_v14 main_arg1 main_v15 ((fun l r => Host.dotGeneral dot_S2048x496x64_S64x64_S2048x496x64_2_0_01_1_n_n none l r) : (⟨S2048x496x64, .f32⟩ : BufTy).Contents (Elt F) → (⟨S64x64, .f32⟩ : BufTy).Contents (Elt F) → (⟨S2048x496x64, .f32⟩ : BufTy).Contents (Elt F)),
    unary main_arg2 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S2048x496x64 ![0, 1, 2] bcast_S1x1x64_S2048x496x64_0_1_2 : (⟨S1x1x64, .f32⟩ : BufTy).Contents (Elt F) → (⟨S2048x496x64, .f32⟩ : BufTy).Contents (Elt F)),
    binary main_v15 main_v17 main_v18 (addf : (⟨S2048x496x64, .f32⟩ : BufTy).Contents (Elt F) → (⟨S2048x496x64, .f32⟩ : BufTy).Contents (Elt F) → (⟨S2048x496x64, .f32⟩ : BufTy).Contents (Elt F)),
    TRef.nullary main_call0.cst (constant S_ .f32 0x00000000#32),
    TRef.unary main_call0.cst main_call0.v0 (broadcastInDim S2048x496x64 ![] bcast_S_S2048x496x64),
    TRef.binary (.of main_v18) main_call0.v0 main_call0.v1 maximumf,
    binary main_v19 main_arg3 main_v20 ((fun l r => Host.dotGeneral dot_S2048x496x64_S64x1_S2048x496x1_2_0_01_1_n_n none l r) : (⟨S2048x496x64, .f32⟩ : BufTy).Contents (Elt F) → (⟨S64x1, .f32⟩ : BufTy).Contents (Elt F) → (⟨S2048x496x1, .f32⟩ : BufTy).Contents (Elt F)),
    nullary main_cst (constant S_ .f32 0xFF800000#32),
    binary main_v20 main_cst main_v21 ((fun x v => Host.reduce FloatOps.maximumf x v reducesTo_S2048x496x1_S2048x1_d1 h_S_) : (⟨S2048x496x1, .f32⟩ : BufTy).Contents (Elt F) → (⟨S_, .f32⟩ : BufTy).Contents (Elt F) → (⟨S2048x1, .f32⟩ : BufTy).Contents (Elt F)),
    nullary main_cst_5 (constant S_ .f32 0xFF800000#32),
    unary main_cst_5 main_v22 (broadcastInDim S2048x1 ![] bcast_S_S2048x1 : (⟨S_, .f32⟩ : BufTy).Contents (Elt F) → (⟨S2048x1, .f32⟩ : BufTy).Contents (Elt F)),
    binary main_v22 main_v21 main_v23 (maximumf : (⟨S2048x1, .f32⟩ : BufTy).Contents (Elt F) → (⟨S2048x1, .f32⟩ : BufTy).Contents (Elt F) → (⟨S2048x1, .f32⟩ : BufTy).Contents (Elt F)),
    unary main_v23 main_v24 (broadcastInDim S2048x1x1 ![0, 2] bcast_S2048x1_S2048x1x1_0_2 : (⟨S2048x1, .f32⟩ : BufTy).Contents (Elt F) → (⟨S2048x1x1, .f32⟩ : BufTy).Contents (Elt F)),
    unary main_v24 main_v25 (broadcastInDim S2048x496x1 ![0, 1, 2] bcast_S2048x1x1_S2048x496x1_0_1_2 : (⟨S2048x1x1, .f32⟩ : BufTy).Contents (Elt F) → (⟨S2048x496x1, .f32⟩ : BufTy).Contents (Elt F)),
    binary main_v20 main_v25 main_v26 (subf : (⟨S2048x496x1, .f32⟩ : BufTy).Contents (Elt F) → (⟨S2048x496x1, .f32⟩ : BufTy).Contents (Elt F) → (⟨S2048x496x1, .f32⟩ : BufTy).Contents (Elt F)),
    unary main_v26 main_v27 (Host.exp : (⟨S2048x496x1, .f32⟩ : BufTy).Contents (Elt F) → (⟨S2048x496x1, .f32⟩ : BufTy).Contents (Elt F)),
    nullary main_cst_6 (constant S_ .f32 0x00000000#32),
    binary main_v27 main_cst_6 main_v28 ((fun x v => Host.reduceAdd x v reducesTo_S2048x496x1_S2048x1_d1 h_S_) : (⟨S2048x496x1, .f32⟩ : BufTy).Contents (Elt F) → (⟨S_, .f32⟩ : BufTy).Contents (Elt F) → (⟨S2048x1, .f32⟩ : BufTy).Contents (Elt F)),
    unary main_v28 main_v29 (broadcastInDim S2048x1x1 ![0, 2] bcast_S2048x1_S2048x1x1_0_2 : (⟨S2048x1, .f32⟩ : BufTy).Contents (Elt F) → (⟨S2048x1x1, .f32⟩ : BufTy).Contents (Elt F)),
    unary main_v29 main_v30 (broadcastInDim S2048x496x1 ![0, 1, 2] bcast_S2048x1x1_S2048x496x1_0_1_2 : (⟨S2048x1x1, .f32⟩ : BufTy).Contents (Elt F) → (⟨S2048x496x1, .f32⟩ : BufTy).Contents (Elt F)),
    binary main_v27 main_v30 main_v31 (Host.divf : (⟨S2048x496x1, .f32⟩ : BufTy).Contents (Elt F) → (⟨S2048x496x1, .f32⟩ : BufTy).Contents (Elt F) → (⟨S2048x496x1, .f32⟩ : BufTy).Contents (Elt F)),
    unary main_v31 main_v32 (broadcastInDim S2048x496x64 ![0, 1, 2] bcast_S2048x496x1_S2048x496x64_0_1_2 : (⟨S2048x496x1, .f32⟩ : BufTy).Contents (Elt F) → (⟨S2048x496x64, .f32⟩ : BufTy).Contents (Elt F)),
    binary main_v32 main_v14 main_v33 (mulf : (⟨S2048x496x64, .f32⟩ : BufTy).Contents (Elt F) → (⟨S2048x496x64, .f32⟩ : BufTy).Contents (Elt F) → (⟨S2048x496x64, .f32⟩ : BufTy).Contents (Elt F)),
    nullary main_cst_7 (constant S_ .f32 0x00000000#32),
    binary main_v33 main_cst_7 main_v34 ((fun x v => Host.reduceAdd x v reducesTo_S2048x496x64_S2048x64_d1 h_S_) : (⟨S2048x496x64, .f32⟩ : BufTy).Contents (Elt F) → (⟨S_, .f32⟩ : BufTy).Contents (Elt F) → (⟨S2048x64, .f32⟩ : BufTy).Contents (Elt F)),
    binary main_v34 main_arg4 main_v35 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_arg5 main_v36 (broadcastInDim S1x1 ![1] bcast_S1_S1x1_1 : (⟨S1, .f32⟩ : BufTy).Contents (Elt F) → (⟨S1x1, .f32⟩ : BufTy).Contents (Elt F)),
    unary main_v36 main_v37 (broadcastInDim S2048x1 ![0, 1] bcast_S1x1_S2048x1_0_1 : (⟨S1x1, .f32⟩ : BufTy).Contents (Elt F) → (⟨S2048x1, .f32⟩ : BufTy).Contents (Elt F)),
    binary main_v35 main_v37 main_v38 (addf : (⟨S2048x1, .f32⟩ : BufTy).Contents (Elt F) → (⟨S2048x1, .f32⟩ : BufTy).Contents (Elt F) → (⟨S2048x1, .f32⟩ : BufTy).Contents (Elt F)) ]

set_option maxRecDepth 4096 in
/-- The entry function is that straight line: the called function unfolded at its call, sequencing reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., unary_bufs_sub .., unary_bufs_sub .., binary_bufs_sub ..⟩

/-- From any memory with zero counters, every weakly fair execution of the entry function terminates, and every
    buffer ends at the fold of the operations over the memory's contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as one function of its six argument arrays, stage by stage.

  Each stage is the program's own operations on whole arrays: the two index tables wrapped as jnp wraps a negative
  index and laid out as a column; the two gathers of fields along the middle axis and their product; the hidden
  layer (a contraction with the first weight matrix, the bias spread along the last axis, the maximum with zero);
  the score (a contraction with the second weight column); its maximum over the pairs, the shifted exponential, the
  sum of the exponentials, the quotient; the products pooled with the quotients; the last contraction and bias.
-/
import proofs.«109236_j77601469104538_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The two tables of the pair list, as the program's constants hold them. -/
def tabI : IVec S496 32 := fun i => lit0 (S496.rowMajor i)
def tabJ : IVec S496 32 := fun i => lit1 (S496.rowMajor i)

/-- A table with its negative entries wrapped by 32 (there are none), as a column of start indices. -/
def wrapCol (c : IVec S496 32) : IVec S496x1 32 :=
  broadcastInDim S496x1 ![0] bcast_S496_S496x1_0
    (select (cmpi .slt c (broadcastInDim S496 ![] bcast_S_S496 (constantI S_ 32 0#32)))
      (addi c (broadcastInDim S496 ![] bcast_S_S496 (constantI S_ 32 32#32))) c)

/-- The fields a table names, gathered along the middle axis: position `p` of the result is field `c p` of the row. -/
def fieldAt (X : FVec F S2048x32x64 .f32) (c : IVec S496 32) : FVec F S2048x496x64 .f32 :=
  Host.gather gather_S2048x32x64_S496x1_S2048x496x64_02_1_n_n_1_1_2048164 X (wrapCol c)

/-- The products of the two fields of every pair. -/
def crossV (X : FVec F S2048x32x64 .f32) : FVec F S2048x496x64 .f32 := mulf (fieldAt X tabI) (fieldAt X tabJ)

/-- The hidden layer of the scores. -/
def hidV (cr : FVec F S2048x496x64 .f32) (W1 : FVec F S64x64 .f32) (B1 : FVec F S64 .f32) : FVec F S2048x496x64 .f32 :=
  maximumf
    (addf (Host.dotGeneral dot_S2048x496x64_S64x64_S2048x496x64_2_0_01_1_n_n none cr W1)
      (broadcastInDim S2048x496x64 ![0, 1, 2] bcast_S1x1x64_S2048x496x64_0_1_2
        (broadcastInDim S1x1x64 ![2] bcast_S64_S1x1x64_2 B1)))
    (broadcastInDim S2048x496x64 ![] bcast_S_S2048x496x64 (constant S_ .f32 0x00000000#32))

/-- The scores. -/
def scoreV (h : FVec F S2048x496x64 .f32) (W2 : FVec F S64x1 .f32) : FVec F S2048x496x1 .f32 :=
  Host.dotGeneral dot_S2048x496x64_S64x1_S2048x496x1_2_0_01_1_n_n none h W2

/-- A value per row spread back over the pairs. -/
def spreadV (v : FVec F S2048x1 .f32) : FVec F S2048x496x1 .f32 :=
  broadcastInDim S2048x496x1 ![0, 1, 2] bcast_S2048x1x1_S2048x496x1_0_1_2
    (broadcastInDim S2048x1x1 ![0, 2] bcast_S2048x1_S2048x1x1_0_2 v)

/-- The largest score of each row. -/
def peakV (sc : FVec F S2048x496x1 .f32) : FVec F S2048x1 .f32 :=
  maximumf (broadcastInDim S2048x1 ![] bcast_S_S2048x1 (constant S_ .f32 0xFF800000#32))
    (Host.reduce FloatOps.maximumf sc (constant S_ .f32 0xFF800000#32) reducesTo_S2048x496x1_S2048x1_d1 h_S_)

/-- The shifted exponentials. -/
def exV (sc : FVec F S2048x496x1 .f32) : FVec F S2048x496x1 .f32 := Host.exp (subf sc (spreadV (peakV sc)))

/-- Their sum over the pairs of each row. -/
def denV (e : FVec F S2048x496x1 .f32) : FVec F S2048x1 .f32 :=
  Host.reduceAdd e (constant S_ .f32 0x00000000#32) reducesTo_S2048x496x1_S2048x1_d1 h_S_

/-- The softmax weights. -/
def attnV (e : FVec F S2048x496x1 .f32) : FVec F S2048x496x1 .f32 := Host.divf e (spreadV (denV e))

/-- The products pooled with the weights. -/
def pooledV (a : FVec F S2048x496x1 .f32) (cr : FVec F S2048x496x64 .f32) : FVec F S2048x64 .f32 :=
  Host.reduceAdd (mulf (broadcastInDim S2048x496x64 ![0, 1, 2] bcast_S2048x496x1_S2048x496x64_0_1_2 a) cr)
    (constant S_ .f32 0x00000000#32) reducesTo_S2048x496x64_S2048x64_d1 h_S_

/-- The last linear layer. -/
def outV (f : FVec F S2048x64 .f32) (FW : FVec F S64x1 .f32) (FB : FVec F S1 .f32) : FVec F S2048x1 .f32 :=
  addf (Host.dotGeneral dot_S2048x64_S64x1_S2048x1_1_0_0_1_n_n none f FW)
    (broadcastInDim S2048x1 ![0, 1] bcast_S1x1_S2048x1_0_1 (broadcastInDim S1x1 ![1] bcast_S1_S1x1_1 FB))

/-- Everything after the products, as a function of any table of products. -/
def tailV (cr : FVec F S2048x496x64 .f32) (W1 : FVec F S64x64 .f32) (B1 : FVec F S64 .f32) (W2 FW : FVec F S64x1 .f32)
    (FB : FVec F S1 .f32) : FVec F S2048x1 .f32 :=
  outV (pooledV (attnV (exV (scoreV (hidV cr W1 B1) W2))) cr) FW FB

/-- The reference's result of its six argument arrays. -/
def refTerm (X : FVec F S2048x32x64 .f32) (W1 : FVec F S64x64 .f32) (B1 : FVec F S64 .f32) (W2 FW : FVec F S64x1 .f32)
    (FB : FVec F S1 .f32) : FVec F S2048x1 .f32 :=
  tailV (crossV X) W1 B1 W2 FW FB

end Cert.ReferenceIdeal.RefValue

end
-- ==== Proof.RefRun.lean ====
/-
  The reference's run: its result is `refTerm` of the six argument arrays, and the arguments are left as they were.

  The fold of the fifty-one operations is read at the result buffer: each operation's result at its own buffer is its
  function of its operands' contents, every other buffer keeps what it held; what is left is the stages of
  `refTerm` applied to the argument buffers' contents.
-/
import proofs.«109236_j77601469104538_2_alg».proof.Proof.RefOps
import proofs.«109236_j77601469104538_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The result buffer after the operations. -/
theorem after_out (V : Valuation τ sig (Elt F)) :
    after ops V (main_v38 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
theorem after_arg0 (V : Valuation τ sig (Elt F)) : after ops V (main_arg0 : DevRef τ sig) = V (main_arg0 : DevRef τ sig) := by
  after_results_simp
set_option maxRecDepth 8192 in
theorem after_arg1 (V : Valuation τ sig (Elt F)) : after ops V (main_arg1 : DevRef τ sig) = V (main_arg1 : DevRef τ sig) := by
  after_results_simp
set_option maxRecDepth 8192 in
theorem after_arg2 (V : Valuation τ sig (Elt F)) : after ops V (main_arg2 : DevRef τ sig) = V (main_arg2 : DevRef τ sig) := by
  after_results_simp
set_option maxRecDepth 8192 in
theorem after_arg3 (V : Valuation τ sig (Elt F)) : after ops V (main_arg3 : DevRef τ sig) = V (main_arg3 : DevRef τ sig) := by
  after_results_simp
set_option maxRecDepth 8192 in
theorem after_arg4 (V : Valuation τ sig (Elt F)) : after ops V (main_arg4 : DevRef τ sig) = V (main_arg4 : DevRef τ sig) := by
  after_results_simp
set_option maxRecDepth 8192 in
theorem after_arg5 (V : Valuation τ sig (Elt F)) : after ops V (main_arg5 : DevRef τ sig) = V (main_arg5 : DevRef τ sig) := by
  after_results_simp

/-- From any memory with zero counters, every weakly fair execution of the entry function terminates with the result
    buffer at `refTerm` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v38).trans (after_out (launchContents m c)),
       (h c main_arg0).trans (after_arg0 (launchContents m c)),
       (h c main_arg1).trans (after_arg1 (launchContents m c)),
       (h c main_arg2).trans (after_arg2 (launchContents m c)),
       (h c main_arg3).trans (after_arg3 (launchContents m c)),
       (h c main_arg4).trans (after_arg4 (launchContents m c)),
       (h c main_arg5).trans (after_arg5 (launchContents m c))⟩)
    (run_after m ρ)

end Cert.ReferenceIdeal.RefValue

end
-- ==== Proof.RefRead.lean ====
/-
  The reference's array operations read at one index, at the ideal values.

  `gather_apply`: the gather along the middle axis reads, at `(b, p, d)`, the operand at `(b, i, d)` with `i` the start
  index at `(p, 0)` read signed and clamped into `[0, 31]`. `dot3_apply`: the contraction of the last axis of an
  `[a, b, k]` array with the first axis of a `[k, n]` matrix reads, at `(i, p, c)`, the sum over `e` of the products.
  The spreads of a vector, of a per-row value and of a scalar read the value they copy.
-/
import proofs.«109236_j77601469104538_2_alg».proof.Proof.Gen.ReferenceIdeal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The gather along the middle axis -/

/-- The gather's dimension numbers, as the program states them. -/
abbrev GD : GatherDims S2048x32x64 S496x1 S2048x496x64 := gather_S2048x32x64_S496x1_S2048x496x64_02_1_n_n_1_1_2048164

/-- The gather at `(b, p, d)`: the operand's field named by the start index at `(p, 0)`, read signed and clamped. -/
theorem gather_apply {α : Type} (x : S2048x32x64.Idx → α) (idx : IVec S496x1 32) (b : Fin 2048) (p : Fin 496) (d : Fin 64) :
    Host.gather GD x idx (ix3 b p d)
      = x (ix3 b (⟨min (idx (ix2 p (0 : Fin 1))).toInt.toNat 31, by omega⟩ : Fin 32) d) := by
  unfold Host.gather
  refine congrArg x (funext fun a => Fin.ext ?_)
  show GD.start (ix3 b p d) idx a + GD.batchCoord (ix3 b p d) a + GD.offCoord (ix3 b p d) a = _
  rw [GatherDims.batchCoord_eq_zero _ _ _ List.not_mem_nil, Nat.add_zero]
  have m0 : (⟨0, by decide⟩ : Fin S2048x32x64.rank) ∉ GD.startIndexMap := by decide
  have k0 : (⟨0, by decide⟩ : Fin S2048x32x64.rank) ∈ GD.sKept := by decide
  have m1 : (⟨1, by decide⟩ : Fin S2048x32x64.rank) ∈ GD.startIndexMap := by decide
  have k1 : (⟨1, by decide⟩ : Fin S2048x32x64.rank) ∉ GD.sKept := by decide
  have m2 : (⟨2, by decide⟩ : Fin S2048x32x64.rank) ∉ GD.startIndexMap := by decide
  have k2 : (⟨2, by decide⟩ : Fin S2048x32x64.rank) ∈ GD.sKept := by decide
  match a with
  | ⟨0, h0⟩ =>
    have hs : GD.start (ix3 b p d) idx ⟨0, h0⟩ = 0 := by
      unfold GatherDims.start; exact dif_neg m0
    have ho : GD.offCoord (ix3 b p d) ⟨0, h0⟩ = b.val := by
      unfold GatherDims.offCoord; rw [dif_pos k0]; rfl
    rw [hs, ho, Nat.zero_add]
  | ⟨1, h1⟩ =>
    have ho : GD.offCoord (ix3 b p d) ⟨1, h1⟩ = 0 := GatherDims.offCoord_eq_zero _ _ _ k1
    rw [ho, Nat.add_zero]
    unfold GatherDims.start
    rw [dif_pos m1]
    refine congrArg₂ min (congrArg (fun i => (idx i).toInt.toNat) ?_) rfl
    funext e
    refine Fin.ext ?_
    match e with
    | ⟨0, _⟩ => rfl
    | ⟨1, _⟩ => rfl
  | ⟨2, h2⟩ =>
    have hs : GD.start (ix3 b p d) idx ⟨2, h2⟩ = 0 := by
      unfold GatherDims.start; exact dif_neg m2
    have ho : GD.offCoord (ix3 b p d) ⟨2, h2⟩ = d.val := by
      unfold GatherDims.offCoord; rw [dif_pos k2]; rfl
    rw [hs, ho, Nat.zero_add]

/-! ## A contraction of the last axis of a rank-3 array with the first axis of a matrix -/

/-- `dot_general` over `[a, b, k]` and `[k, n]` contracting axes 2 and 0, read at `(i, p, c)`. `w` is the record's
    well-formedness, which a program states. -/
theorem dot3_apply {a b k n : Nat} {φ₁ φ₂ : FTy}
    (w : DotDims.WF ⟨3, ![a, b, k]⟩ ⟨2, ![k, n]⟩ ⟨3, ![a, b, n]⟩ [2] [0] [0, 1] [1] [] [])
    (prec : Option ContractPrecision) (A : FVec Ideal ⟨3, ![a, b, k]⟩ φ₁) (B : FVec Ideal ⟨2, ![k, n]⟩ φ₂)
    (i : Fin a) (p : Fin b) (c : Fin n) :
    Host.dotGeneral (⟨[2], [0], [0, 1], [1], [], [], w⟩ : DotDims _ _ _) prec A B (ix3 i p c)
      = ∑ e : Fin k, A (ix3 i p e) * B (ix2 e c) := by
  show FloatOps.dotGeneral _ prec _ A B (ix3 i p c) = _
  rw [Ideal.dotGeneral_apply,
    ← Equiv.sum_comp (contrEquiv1 (⟨[2], [0], [0, 1], [1], [], [], w⟩ : DotDims _ _ _) k rfl rfl).symm]
  refine Finset.sum_congr rfl fun e _ => ?_
  have c3 := contrEquiv1_symm_val
    (⟨[2], [0], [0, 1], [1], [], [], w⟩ : DotDims ⟨3, ![a, b, k]⟩ ⟨2, ![k, n]⟩ ⟨3, ![a, b, n]⟩) k rfl rfl e
  have l3 : (⟨[2], [0], [0, 1], [1], [], [], w⟩ : DotDims ⟨3, ![a, b, k]⟩ ⟨2, ![k, n]⟩ ⟨3, ![a, b, n]⟩).lhsIdx (ix3 i p c)
      ((contrEquiv1 _ k rfl rfl).symm e) = ix3 i p e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![a, b, k]⟩ ⟨2, ![k, n]⟩ ⟨3, ![a, b, n]⟩).rhsIdx (ix3 i p c)
      ((contrEquiv1 _ k rfl rfl).symm e) = ix2 e c := by
    funext ax; apply Fin.ext
    match ax with
    | ⟨0, _⟩ => simp [DotDims.rhsIdx]; exact c3
    | ⟨1, _⟩ => simp [DotDims.rhsIdx]; rfl
  rw [l3, r3]

/-! ## Spreads -/

section Spreads
variable {α : Type}

/-- A table laid out as a column reads the table's entry. -/
theorem col_apply (x : S496.Idx → α) (p : Fin 496) (z : Fin 1) :
    broadcastInDim S496x1 ![0] bcast_S496_S496x1_0 x (ix2 p z) = x (ix1 p) :=
  broadcastInDim_apply ![0] bcast_S496_S496x1_0 x (ix2 p z) (ix1 p) fun ax => by
    match ax with
    | ⟨0, _⟩ => rfl

/-- A vector along the last axis spread over the rows and the pairs reads its entry. -/
theorem lastAxis_apply (x : S64.Idx → α) (b : Fin 2048) (p : Fin 496) (a : Fin 64) :
    broadcastInDim S2048x496x64 ![0, 1, 2] bcast_S1x1x64_S2048x496x64_0_1_2
        (broadcastInDim S1x1x64 ![2] bcast_S64_S1x1x64_2 x) (ix3 b p a) = x (ix1 a) := by
  refine (broadcastInDim_apply ![0, 1, 2] bcast_S1x1x64_S2048x496x64_0_1_2 _ (ix3 b p a)
    (ix3 (0 : Fin 1) (0 : Fin 1) a) fun ax => ?_).trans ?_
  · match ax with
    | ⟨0, _⟩ => rfl
    | ⟨1, _⟩ => rfl
    | ⟨2, _⟩ => rfl
  · exact broadcastInDim_apply ![2] bcast_S64_S1x1x64_2 x (ix3 (0 : Fin 1) (0 : Fin 1) a) (ix1 a) fun ax => by
      match ax with
      | ⟨0, _⟩ => rfl

/-- A value per row and pair spread along the last axis reads that value. -/
theorem alongLast_apply (x : S2048x496x1.Idx → α) (b : Fin 2048) (p : Fin 496) (d : Fin 64) :
    broadcastInDim S2048x496x64 ![0, 1, 2] bcast_S2048x496x1_S2048x496x64_0_1_2 x (ix3 b p d) = x (ix3 b p (0 : Fin 1)) :=
  broadcastInDim_apply ![0, 1, 2] bcast_S2048x496x1_S2048x496x64_0_1_2 x (ix3 b p d) (ix3 b p (0 : Fin 1)) fun ax => by
    match ax with
    | ⟨0, _⟩ => rfl
    | ⟨1, _⟩ => rfl
    | ⟨2, _⟩ => rfl

/-- The one-entry bias spread over the rows reads its entry. -/
theorem bias_apply (x : S1.Idx → α) (b : Fin 2048) (z : Fin 1) :
    broadcastInDim S2048x1 ![0, 1] bcast_S1x1_S2048x1_0_1 (broadcastInDim S1x1 ![1] bcast_S1_S1x1_1 x) (ix2 b z)
      = x (ix1 (0 : Fin 1)) := by
  refine (broadcastInDim_apply ![0, 1] bcast_S1x1_S2048x1_0_1 _ (ix2 b z) (ix2 (0 : Fin 1) (0 : Fin 1)) fun ax => ?_).trans ?_
  · match ax with
    | ⟨0, _⟩ => rfl
    | ⟨1, _⟩ => rfl
  · exact broadcastInDim_apply ![1] bcast_S1_S1x1_1 x (ix2 (0 : Fin 1) (0 : Fin 1)) (ix1 (0 : Fin 1)) fun ax => by
      match ax with
      | ⟨0, _⟩ => rfl

end Spreads

end Cert.ReferenceIdeal.RefValue

end
-- ==== Proof.RefPairs.lean ====
/-
  The program's two index tables are the list of pairs.

  Entry `p` of the first table, wrapped as a negative index would be and clamped into `[0, 31]` as the gather clamps a
  start index, is the smaller field of pair `p`; of the second table, the larger one. Decided entry by entry over
  the 496 positions.
-/
import proofs.«109236_j77601469104538_2_alg».proof.Proof.Gen.ReferenceIdeal
import proofs.«109236_j77601469104538_2_alg».proof.Proof.Spec

namespace Cert.ReferenceIdeal.RefValue

open Cert.ReferenceIdeal Idealize.ShloMosaic

theorem wrap_lit0 : ∀ p : Fin 496,
    min (Scalar.select (IntOp.cmpi .slt (lit0 p) 0#32) (IntOp.addi (lit0 p) 32#32) (lit0 p)).toInt.toNat 31
      = (Cert.Afm.pI p).val := by decide +kernel

theorem wrap_lit1 : ∀ p : Fin 496,
    min (Scalar.select (IntOp.cmpi .slt (lit1 p) 0#32) (IntOp.addi (lit1 p) 32#32) (lit1 p)).toInt.toNat 31
      = (Cert.Afm.pJ p).val := by decide +kernel

end Cert.ReferenceIdeal.RefValue
-- ==== Proof.RefCross.lean ====
/-
  The products of the pairs, read at an index.

  The first gather reads at `(b, p, d)` the row's field `pI p`, the second the field `pJ p`: the start index is the
  table's entry, wrapped and clamped, which is the pair's field. Their product is `cross` of the row.
-/
import proofs.«109236_j77601469104538_2_alg».proof.Proof.RefTerm
import proofs.«109236_j77601469104538_2_alg».proof.Proof.RefRead
import proofs.«109236_j77601469104538_2_alg».proof.Proof.RefPairs

noncomputable section

namespace Cert.ReferenceIdeal.RefValue

open Cert.ReferenceIdeal Cert.ReferenceIdeal.Gen Idealize.ShloMosaic Idealize.ShloMosaic.ValueIdx

/-- The tables at a position are the printed tables' entries. -/
theorem tabI_apply (p : Fin 496) : tabI (ix1 p) = lit0 p := by
  unfold tabI
  exact congrArg lit0 (Fin.ext (Shape.rowMajor_val_one _))

theorem tabJ_apply (p : Fin 496) : tabJ (ix1 p) = lit1 p := by
  unfold tabJ
  exact congrArg lit1 (Fin.ext (Shape.rowMajor_val_one _))

/-- The column of start indices at `(p, 0)`: the table's entry, 32 added if it is negative. -/
theorem wrapCol_apply (c : IVec S496 32) (p : Fin 496) :
    wrapCol c (ix2 p (0 : Fin 1))
      = Scalar.select (IntOp.cmpi .slt (c (ix1 p)) 0#32) (IntOp.addi (c (ix1 p)) 32#32) (c (ix1 p)) := by
  unfold wrapCol
  exact col_apply _ p 0

/-- The first gather reads the smaller field of the pair … -/
theorem fieldAt_tabI (X : FVec Ideal S2048x32x64 .f32) (b : Fin 2048) (p : Fin 496) (d : Fin 64) :
    fieldAt X tabI (ix3 b p d) = X (ix3 b (Cert.Afm.pI p) d) := by
  unfold fieldAt
  refine (gather_apply X (wrapCol tabI) b p d).trans ?_
  refine congrArg (fun i : Fin 32 => X (ix3 b i d)) (Fin.ext ?_)
  show min (wrapCol tabI (ix2 p (0 : Fin 1))).toInt.toNat 31 = (Cert.Afm.pI p).val
  rw [wrapCol_apply, tabI_apply]
  exact wrap_lit0 p

/-- … and the second the larger. -/
theorem fieldAt_tabJ (X : FVec Ideal S2048x32x64 .f32) (b : Fin 2048) (p : Fin 496) (d : Fin 64) :
    fieldAt X tabJ (ix3 b p d) = X (ix3 b (Cert.Afm.pJ p) d) := by
  unfold fieldAt
  refine (gather_apply X (wrapCol tabJ) b p d).trans ?_
  refine congrArg (fun i : Fin 32 => X (ix3 b i d)) (Fin.ext ?_)
  show min (wrapCol tabJ (ix2 p (0 : Fin 1))).toInt.toNat 31 = (Cert.Afm.pJ p).val
  rw [wrapCol_apply, tabJ_apply]
  exact wrap_lit1 p

/-- The products at `(b, p, d)` are `cross` of row `b`. -/
theorem crossV_apply (X : FVec Ideal S2048x32x64 .f32) (b : Fin 2048) (p : Fin 496) (d : Fin 64) :
    crossV X (ix3 b p d) = Cert.Afm.cross (fun i e => X (ix3 b i e)) p d := by
  unfold crossV Cert.Afm.cross
  rw [mulf_apply, fieldAt_tabI, fieldAt_tabJ]

end Cert.ReferenceIdeal.RefValue

end
-- ==== Proof.LibHostRank3.lean ====
/-
  The host's reductions and keep-dimension spreads of a rank-3 array read at an index, and division by 4096.

  General lemmas at the ideal values (a float an extended real); no program's terms appear. They rest on the
  library alone (its single-axis reading of a host reduce as a fold or a sum, its `broadcast_in_dim` read at an
  index, its division at a real divisor that is not zero) and on Mathlib.

  REDUCTIONS. A reduction of an `[a, b, c]` array over its middle axis leaves one value per pair `(p, e)`; the source
  indices that reduce to it are `(p, k, e)` for `k : Fin b` (`lift_mid`). Over its last axis it leaves one value per
  pair `(p, k)`, from the source indices `(p, k, e)` for `e : Fin c` (`lift_last`). So, read at an index,

    * the host's `reduce` with a minimum body over the middle axis is the fold of `min` from the initial value over
      `k ↦ x (p, k, e)` (`hostReduce_minimumf_mid`), and with a maximum body the fold of `max`
      (`hostReduce_maximumf_mid`);
    * the host's float sum over the middle axis is the initial value plus `∑ k, x (p, k, e)` (`hostReduceAdd_mid`),
      and over the last axis the initial value plus `∑ e, x (p, k, e)` (`hostReduceAdd_last`).

  SPREADS. An `[a, c]` array spread in dimensions (0, 2) to `[a, 1, c]` reads at `(p, z, e)` the array at `(p, e)`
  (`broadcastInDim_ac_a1c_apply`); an `[a, 1, c]` array spread in dimensions (0, 1, 2) over `[a, b, c]` reads at
  `(p, k, e)` the array at `(p, 0, e)` (`broadcastInDim_a1c_abc_apply`). Together they are what a sum that keeps its
  reduced middle axis, spread back over that axis, reads at an index.

  THE DIVISOR 4096. The f32 word `0x45800000` denotes the real 4096 (sign 0, exponent 139 = 127 + 12, significand 0:
  `ofBits_4096`), so a quotient by it is the product with the real 1/4096 for EVERY extended real dividend, the
  infinities included (`div_4096`). The count a variance routine divides by, "4096 less the integer 0 read as a
  float", is 4096 (`count_eq`), and the comparison "4096 is above the float word zero" is the bit 1
  (`count_pos_bit`), so a select on that bit keeps its first branch.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.HostRank3

open Idealize.ShloMosaic Idealize.ShloMosaic.ValueIdx

/-! ## The source index over a reduced index -/

/-- Over `(p, e)`, with coordinate `k` on the reduced middle axis, the source index is `(p, k, e)`. -/
theorem lift_mid {a b c : ℕ} (h : (⟨3, ![a, b, c]⟩ : Shape).Reduces [1] ⟨2, ![a, c]⟩) (p : Fin a) (e : Fin c)
    (k : Fin b) : h.lift (ix2 p e) k = ix3 p k e := by
  funext d
  apply Fin.ext
  refine (h.lift_val (ix2 p e) k d).trans ?_
  match d with
  | ⟨0, _⟩ => rfl
  | ⟨1, _⟩ => rfl
  | ⟨2, _⟩ => rfl

/-- Over `(p, k)`, with coordinate `e` on the reduced last axis, the source index is `(p, k, e)`. -/
theorem lift_last {a b c : ℕ} (h : (⟨3, ![a, b, c]⟩ : Shape).Reduces [2] ⟨2, ![a, b]⟩) (p : Fin a) (k : Fin b)
    (e : Fin c) : h.lift (ix2 p k) e = ix3 p k e := by
  funext d
  apply Fin.ext
  refine (h.lift_val (ix2 p k) e d).trans ?_
  match d with
  | ⟨0, _⟩ => rfl
  | ⟨1, _⟩ => rfl
  | ⟨2, _⟩ => rfl

/-! ## The host's reductions over the middle and the last axis -/

/-- The host's `reduce` with a minimum body over the middle axis, at `(p, e)`. -/
theorem hostReduce_minimumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.minimumf (F := Ideal) (φ := φ)) x init h' hu (ix2 p e)
      = (Finset.univ : Finset (Fin b)).fold min (init (Shape.Idx.first hu)) (fun k => x (ix3 p k e)) := by
  refine (Host.reduce_eq_fold_single (FloatOps.minimumf (F := Ideal) (φ := φ)) x init h' h hu (ix2 p e)).trans ?_
  exact congrArg (fun f => (Finset.univ : Finset (Fin b)).fold min (init (Shape.Idx.first hu)) f)
    (funext fun k => congrArg x (lift_mid h p e k))

/-- The host's `reduce` with a maximum body over the middle axis, at `(p, e)`. -/
theorem hostReduce_maximumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.maximumf (F := Ideal) (φ := φ)) x init h' hu (ix2 p e)
      = (Finset.univ : Finset (Fin b)).fold max (init (Shape.Idx.first hu)) (fun k => x (ix3 p k e)) := by
  refine (Host.reduce_eq_fold_single (FloatOps.maximumf (F := Ideal) (φ := φ)) x init h' h hu (ix2 p e)).trans ?_
  exact congrArg (fun f => (Finset.univ : Finset (Fin b)).fold max (init (Shape.Idx.first hu)) f)
    (funext fun k => congrArg x (lift_mid h p e k))

/-- The host's float sum over the middle axis, at `(p, e)`. -/
theorem hostReduceAdd_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduceAdd x init h' hu (ix2 p e) = init (Shape.Idx.first hu) + ∑ k : Fin b, x (ix3 p k e) := by
  rw [hostReduceAdd_apply]
  refine (Ideal.hostReduceAdd_single h' h x (init (Shape.Idx.first hu)) (ix2 p e)).trans ?_
  exact congrArg _ (Finset.sum_congr rfl fun k _ => congrArg x (lift_mid h p e k))

/-- The host's float sum over the last axis, at `(p, k)`. -/
theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (k : Fin b) :
    Host.reduceAdd x init h' hu (ix2 p k) = init (Shape.Idx.first hu) + ∑ e : Fin c, x (ix3 p k e) := by
  rw [hostReduceAdd_apply]
  refine (Ideal.hostReduceAdd_single h' h x (init (Shape.Idx.first hu)) (ix2 p k)).trans ?_
  exact congrArg _ (Finset.sum_congr rfl fun e _ => congrArg x (lift_last h p k e))

/-! ## Spreads that keep the reduced axis as a unit axis -/

section Layout
variable {α : Type}

/-- An `[a, c]` array spread in dimensions (0, 2) to `[a, 1, c]` reads, at `(p, z, e)`, the array at `(p, e)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (p : Fin a) (z : Fin 1) (e : Fin c) :
    broadcastInDim ⟨3, ![a, 1, c]⟩ ![0, 2] h x (ix3 p z e) = x (ix2 p e) :=
  broadcastInDim_apply ![0, 2] h x (ix3 p z e) (ix2 p e) fun ax => by
    match ax with
    | ⟨0, _⟩ =>
      show p.val = if a = 1 then 0 else p.val
      split
      · have := p.isLt; omega
      · rfl
    | ⟨1, _⟩ =>
      show e.val = if c = 1 then 0 else e.val
      split
      · have := e.isLt; omega
      · rfl

/-- An `[a, 1, c]` array spread in dimensions (0, 1, 2) over `[a, b, c]` reads, at `(p, k, e)`, the array at
    `(p, 0, e)`. -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (p : Fin a) (k : Fin b) (e : Fin c) :
    broadcastInDim ⟨3, ![a, b, c]⟩ ![0, 1, 2] h x (ix3 p k e) = x (ix3 p (0 : Fin 1) e) :=
  broadcastInDim_apply ![0, 1, 2] h x (ix3 p k e) (ix3 p (0 : Fin 1) e) fun ax => by
    match ax with
    | ⟨0, _⟩ =>
      show p.val = if a = 1 then 0 else p.val
      split
      · have := p.isLt; omega
      · rfl
    | ⟨1, _⟩ => rfl
    | ⟨2, _⟩ =>
      show e.val = if c = 1 then 0 else e.val
      split
      · have := e.isLt; omega
      · rfl

end Layout

/-! ## The divisor -/

/-- The word `0x45800000` denotes the real 4096. -/
theorem ofBits_4096 : Ideal.ofBits .f32 0x45800000#32 = ((4096 : ℝ) : EReal) := by
  simp [Ideal.ofBits, Ideal.ieee, -EReal.coe_mul]; norm_num

/-- A quotient by 4096 is the product with the real 1/4096, for every extended real. -/
theorem div_4096 (s : EReal) : Ideal.div s (Ideal.ofBits .f32 0x45800000#32) = s * ((1 / 4096 : ℝ) : EReal) := by
  rw [ofBits_4096]
  exact Ideal.div_coe (by norm_num : (4096 : ℝ) ≠ 0) s

/-- 4096 less the integer word 0 read as a float is 4096. -/
theorem count_eq : Ideal.ofBits .f32 0x45800000#32 - (((0#32 : BitVec 32).toInt : ℝ) : EReal) = ((4096 : ℝ) : EReal) := by
  rw [ofBits_4096]
  simp

/-- 4096 is above the float word zero, so the comparison's bit is 1. -/
theorem count_pos_bit : Ideal.cmp .ogt ((4096 : ℝ) : EReal) (Ideal.ofBits .f32 0x00000000#32) = 1#1 := by
  rw [Ideal.ofBits_zero_f32]
  unfold Ideal.cmp
  have h : (0 : EReal) < ((4096 : ℝ) : EReal) := by exact_mod_cast (by norm_num : (0 : ℝ) < 4096)
  simp [h]

end Idealize.ShloMosaic.HostRank3

end
-- ==== Proof.RefStages.lean ====
/-
  Everything after the products, read at an index, is `tail` of the row's products.

  For any table `cr` of products: the hidden layer at `(b, p, a)` is the contraction over the width plus the bias,
  cut below at zero; the score at `(b, p)` the contraction with the second weight column; the row's peak the
  maximum of its scores from minus infinity (the further maximum with minus infinity changes nothing: a maximum taken
  from a value is at least that value); the exponentials, their sum (from zero), the quotients; the pooled products
  the sum over the pairs (from zero); the result the last contraction plus the one-entry bias.
-/
import proofs.«109236_j77601469104538_2_alg».proof.Proof.RefTerm
import proofs.«109236_j77601469104538_2_alg».proof.Proof.RefRead
import proofs.«109236_j77601469104538_2_alg».proof.Proof.Spec
import proofs.«109236_j77601469104538_2_alg».proof.Proof.LibHostRank3
import Idealize.ShloMosaic.Lib.StackMember

noncomputable section

namespace Cert.ReferenceIdeal.RefValue

open Cert.ReferenceIdeal Cert.ReferenceIdeal.Gen Idealize.ShloMosaic Idealize.ShloMosaic.ValueIdx

/-! ## The three contractions -/

theorem dotHid_apply (cr : FVec Ideal S2048x496x64 .f32) (W1 : FVec Ideal S64x64 .f32) (b : Fin 2048) (p : Fin 496)
    (a : Fin 64) :
    Host.dotGeneral dot_S2048x496x64_S64x64_S2048x496x64_2_0_01_1_n_n none cr W1 (ix3 b p a)
      = ∑ d : Fin 64, cr (ix3 b p d) * W1 (ix2 d a) :=
  dot3_apply dot_S2048x496x64_S64x64_S2048x496x64_2_0_01_1_n_n_wf none cr W1 b p a

theorem dotScore_apply (h : FVec Ideal S2048x496x64 .f32) (W2 : FVec Ideal S64x1 .f32) (b : Fin 2048) (p : Fin 496)
    (z : Fin 1) :
    Host.dotGeneral dot_S2048x496x64_S64x1_S2048x496x1_2_0_01_1_n_n none h W2 (ix3 b p z)
      = ∑ a : Fin 64, h (ix3 b p a) * W2 (ix2 a z) :=
  dot3_apply dot_S2048x496x64_S64x1_S2048x496x1_2_0_01_1_n_n_wf none h W2 b p z

theorem dotOut_apply (f : FVec Ideal S2048x64 .f32) (FW : FVec Ideal S64x1 .f32) (b : Fin 2048) (z : Fin 1) :
    Host.dotGeneral dot_S2048x64_S64x1_S2048x1_1_0_0_1_n_n none f FW (ix2 b z)
      = ∑ d : Fin 64, f (ix2 b d) * FW (ix2 d z) :=
  StackMember.dotGeneral_plain_apply none f FW b z

/-! ## The stages -/

section Stages

variable (cr : FVec Ideal S2048x496x64 .f32) (W1 : FVec Ideal S64x64 .f32) (B1 : FVec Ideal S64 .f32)
  (W2 FW : FVec Ideal S64x1 .f32) (FB : FVec Ideal S1 .f32)

/-- The hidden layer. -/
theorem hidV_apply (b : Fin 2048) (p : Fin 496) (a : Fin 64) :
    hidV cr W1 B1 (ix3 b p a)
      = Cert.Afm.hid (fun q d => cr (ix3 b q d)) (fun d a => W1 (ix2 d a)) (fun a => B1 (ix1 a)) p a := by
  unfold hidV Cert.Afm.hid
  rw [maximumf_apply, addf_apply, dotHid_apply, lastAxis_apply]
  rfl

/-- The score. -/
theorem scoreV_apply (b : Fin 2048) (p : Fin 496) :
    scoreV (hidV cr W1 B1) W2 (ix3 b p (0 : Fin 1))
      = Cert.Afm.score (fun q d => cr (ix3 b q d)) (fun d a => W1 (ix2 d a)) (fun a => B1 (ix1 a))
          (fun a => W2 (ix2 a (0 : Fin 1))) p := by
  unfold scoreV Cert.Afm.score
  rw [dotScore_apply]
  exact Finset.sum_congr rfl fun a _ => by rw [hidV_apply]

/-- A per-row value spread over the pairs reads that value. -/
theorem spreadV_apply (v : FVec Ideal S2048x1 .f32) (b : Fin 2048) (p : Fin 496) (z : Fin 1) :
    spreadV v (ix3 b p z) = v (ix2 b z) := by
  unfold spreadV
  refine (HostRank3.broadcastInDim_a1c_abc_apply _ bcast_S2048x1x1_S2048x496x1_0_1_2 b p z).trans ?_
  exact HostRank3.broadcastInDim_ac_a1c_apply v bcast_S2048x1_S2048x1x1_0_2 b (0 : Fin 1) z

/-- The row's peak: the maximum of its scores from minus infinity. -/
theorem peakV_apply (sc : FVec Ideal S2048x496x1 .f32) (b : Fin 2048) (z : Fin 1) :
    peakV sc (ix2 b z) = (Finset.univ : Finset (Fin 496)).fold max Cert.Afm.negInf (fun p => sc (ix3 b p z)) := by
  unfold peakV
  rw [maximumf_apply,
    HostRank3.hostReduce_maximumf_mid sc (constant (F := Ideal) S_ .f32 0xFF800000#32) reducesTo_S2048x496x1_S2048x1_d1
      (by decide) h_S_ b z]
  exact max_eq_right ((Finset.le_fold_max _).mpr (Or.inl le_rfl))

/-- The shifted exponential. -/
theorem exV_apply (sc : FVec Ideal S2048x496x1 .f32) (b : Fin 2048) (p : Fin 496) :
    exV sc (ix3 b p (0 : Fin 1))
      = Ideal.exp (sc (ix3 b p (0 : Fin 1))
          - (Finset.univ : Finset (Fin 496)).fold max Cert.Afm.negInf (fun q => sc (ix3 b q (0 : Fin 1)))) := by
  unfold exV
  show Ideal.exp (sc (ix3 b p (0 : Fin 1)) - spreadV (peakV sc) (ix3 b p (0 : Fin 1))) = _
  rw [spreadV_apply, peakV_apply]

/-- The sum of the exponentials. -/
theorem denV_apply (e : FVec Ideal S2048x496x1 .f32) (b : Fin 2048) (z : Fin 1) :
    denV e (ix2 b z) = ∑ p : Fin 496, e (ix3 b p z) := by
  unfold denV
  rw [HostRank3.hostReduceAdd_mid e (constant (F := Ideal) S_ .f32 0x00000000#32) reducesTo_S2048x496x1_S2048x1_d1
    (by decide) h_S_ b z]
  show Ideal.ofBits .f32 0x00000000#32 + _ = _
  rw [Ideal.ofBits_zero_f32, zero_add]

/-- The softmax weight. -/
theorem attnV_apply (e : FVec Ideal S2048x496x1 .f32) (b : Fin 2048) (p : Fin 496) :
    attnV e (ix3 b p (0 : Fin 1)) = Ideal.div (e (ix3 b p (0 : Fin 1))) (∑ q : Fin 496, e (ix3 b q (0 : Fin 1))) := by
  unfold attnV
  rw [hostDivf_apply, spreadV_apply, denV_apply]

/-- The pooled products. -/
theorem pooledV_apply (a : FVec Ideal S2048x496x1 .f32) (b : Fin 2048) (d : Fin 64) :
    pooledV a cr (ix2 b d) = ∑ p : Fin 496, a (ix3 b p (0 : Fin 1)) * cr (ix3 b p d) := by
  unfold pooledV
  rw [HostRank3.hostReduceAdd_mid _ (constant (F := Ideal) S_ .f32 0x00000000#32) reducesTo_S2048x496x64_S2048x64_d1
    (by decide) h_S_ b d]
  show Ideal.ofBits .f32 0x00000000#32 + _ = _
  rw [Ideal.ofBits_zero_f32, zero_add]
  exact Finset.sum_congr rfl fun p _ => by rw [mulf_apply, alongLast_apply]

/-- The last layer. -/
theorem outV_apply (f : FVec Ideal S2048x64 .f32) (b : Fin 2048) :
    outV f FW FB (ix2 b (0 : Fin 1)) = (∑ d : Fin 64, f (ix2 b d) * FW (ix2 d (0 : Fin 1))) + FB (ix1 (0 : Fin 1)) := by
  unfold outV
  rw [addf_apply, dotOut_apply, bias_apply]

/-- Everything after the products, at row `b`, is `tail` of the row's products. -/
theorem tailV_apply (b : Fin 2048) :
    tailV cr W1 B1 W2 FW FB (ix2 b (0 : Fin 1))
      = Cert.Afm.tail (fun q d => cr (ix3 b q d)) (fun d a => W1 (ix2 d a)) (fun a => B1 (ix1 a))
          (fun a => W2 (ix2 a (0 : Fin 1))) (fun d => FW (ix2 d (0 : Fin 1))) (FB (ix1 (0 : Fin 1))) := by
  unfold tailV Cert.Afm.tail Cert.Afm.pooled Cert.Afm.attn Cert.Afm.den Cert.Afm.ex Cert.Afm.peak
  simp only [outV_apply, pooledV_apply, attnV_apply, exV_apply, scoreV_apply]

end Stages

end Cert.ReferenceIdeal.RefValue

end
-- ==== Proof.RefWhole.lean ====
/-
  The reference's run ends at the specification.

  The reference's term, read at `(b, 0)`, is `tail` of the products of row `b`, and those are `cross` of the row: it is
  `whole` of the six argument arrays. With the run, every execution of the reference ends with its result at `whole`
  of its arguments and the arguments unchanged.
-/
import proofs.«109236_j77601469104538_2_alg».proof.Proof.RefRun
import proofs.«109236_j77601469104538_2_alg».proof.Proof.RefCross
import proofs.«109236_j77601469104538_2_alg».proof.Proof.RefStages

noncomputable section

namespace Cert.ReferenceIdeal.RefValue

open Cert.ReferenceIdeal Idealize.ShloMosaic Idealize.ShloMosaic.TcCoe Idealize.SL.Sem
open Idealize.ShloMosaic.ValueIdx

/-- The reference's term is the specification, index by index. -/
theorem refTerm_eq_whole (X : FVec Ideal S2048x32x64 .f32) (W1 : FVec Ideal S64x64 .f32) (B1 : FVec Ideal S64 .f32)
    (W2 FW : FVec Ideal S64x1 .f32) (FB : FVec Ideal S1 .f32) :
    refTerm X W1 B1 W2 FW FB = Cert.Afm.whole X W1 B1 W2 FW FB := by
  funext j
  obtain ⟨b, z, rfl⟩ : ∃ (b : Fin 2048) (z : Fin 1), j = ix2 b z := ⟨j 0, j 1, eq_ix2 j⟩
  obtain rfl : z = 0 := Subsingleton.elim _ _
  unfold refTerm
  rw [tailV_apply]
  have hc : (fun q d => crossV X (ix3 b q d)) = Cert.Afm.cross (fun i e => X (ix3 b i e)) :=
    funext fun q => funext fun d => crossV_apply X b q d
  rw [hc]
  rfl

theorem run_whole (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = Cert.Afm.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run (defs (F := Ideal)) _ _).mono
    (fun _ h c => ⟨(h c).1.trans (refTerm_eq_whole _ _ _ _ _ _), (h c).2⟩)
    (run (F := Ideal) m ρ)

end Cert.ReferenceIdeal.RefValue

end
-- ==== Proof.lean ====
/-
  The attentional factorization machine: the fused kernel against its jnp reference, over the extended reals.

  Both programs compute, for every batch row, the same composition (Proof/Spec.lean): the 496 products of pairs of field
  embeddings; a two-layer perceptron's score of each product; the softmax of the scores over the pairs, shifted by their
  maximum; the products pooled with those weights; one linear layer. The kernel forms the products by 31 slab stores
  into a scratch table, row by row of the strict upper triangle, where the reference gathers them through the two
  index tables of the same list of pairs; its sums over the embedding and hidden axes are a matrix product into a zero
  accumulator and a lane sum where the reference contracts with dot_general; a narrowing to bf16 is the identity on
  extended reals. None of this changes a value: each stage of each program is the stage of the specification, index by
  index, with no law of arithmetic beyond the reordering of finite sums, so finiteness of the inputs is never used.

  The kernel side (Proof/KernelWhole.lean): what grid point `t` writes back is rows `128 t …` of the specification at
  the arguments, and the sixteen blocks cover the result. The reference side (Proof/RefWhole.lean): its straight line of
  host operations ends at the same function of the arguments. The three frames are the generated frame runs (the
  reference's is its run with the result dropped); the idealization rewrote nothing, so `preserves` is trivial.
-/
import proofs.«109236_j77601469104538_2_alg».proof.Defs
import proofs.«109236_j77601469104538_2_alg».proof.Proof.Gen.Kernel
import proofs.«109236_j77601469104538_2_alg».proof.Proof.Gen.Kernel.Skeleton
import proofs.«109236_j77601469104538_2_alg».proof.Proof.Gen.Kernel.Launch
import proofs.«109236_j77601469104538_2_alg».proof.Proof.Gen.Kernel.Points
import proofs.«109236_j77601469104538_2_alg».proof.Proof.Gen.Kernel.Frame
import proofs.«109236_j77601469104538_2_alg».proof.Proof.Gen.KernelIdeal
import proofs.«109236_j77601469104538_2_alg».proof.Proof.Gen.KernelIdeal.Skeleton
import proofs.«109236_j77601469104538_2_alg».proof.Proof.Gen.KernelIdeal.Launch
import proofs.«109236_j77601469104538_2_alg».proof.Proof.Gen.KernelIdeal.Points
import proofs.«109236_j77601469104538_2_alg».proof.Proof.Gen.KernelIdeal.Frame
import proofs.«109236_j77601469104538_2_alg».proof.Proof.Gen.KernelIdeal.Value
import proofs.«109236_j77601469104538_2_alg».proof.Proof.Gen.ReferenceIdeal
import proofs.«109236_j77601469104538_2_alg».proof.Proof.Gen.Pre_finite_inputs
import proofs.«109236_j77601469104538_2_alg».proof.Proof.KernelWhole
import proofs.«109236_j77601469104538_2_alg».proof.Proof.RefWhole
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run_whole m ρ),
  trivial,
  fun m ρ m' ρ' _ hagree => ⟨fun c => Cert.KernelIdeal.Whole.result m c, Cert.KernelIdeal.Whole.run m ρ,
    (θ_run Cert.ReferenceIdeal.defs _ _).mono (fun _ h c => ⟨(h c).1.trans (by
        rw [(hagree c).1, (hagree c).2.1, (hagree c).2.2.1, (hagree c).2.2.2.1, (hagree c).2.2.2.2.1, (hagree c).2.2.2.2.2]), (h c).2⟩)
      (Cert.ReferenceIdeal.RefValue.run_whole m' ρ')⟩⟩

end Cert.Proof

end
